-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x3 : Shape := ⟨4, ![8, 512, 512, 3]⟩
abbrev S8x512x512x25 : Shape := ⟨4, ![8, 512, 512, 25]⟩
abbrev S_ : Shape := ⟨0, ![]⟩

class Facts : Prop where
  bcast_S_S8x512x512x3 : S_.BroadcastsInDim S8x512x512x3 (![] : Fin 0 → Fin S8x512x512x3.rank)
  reducesTo_S8x512x512x3_S_d0_1_2_3 : S8x512x512x3.ReducesTo [0, 1, 2, 3] S_
  h_S_ : 0 < S_.numel
  bcast_S_S8x512x512x25 : S_.BroadcastsInDim S8x512x512x25 (![] : Fin 0 → Fin S8x512x512x25.rank)
  reducesTo_S8x512x512x25_S_d0_1_2_3 : S8x512x512x25.ReducesTo [0, 1, 2, 3] S_

variable [Facts]

def fn {F : FTy → Type} [FloatOps F] (main_arg0 : FVec F S8x512x512x3 .f32) (main_arg1 : FVec F S8x512x512x25 .f32) : IVec S_ 1 :=
  let main_v0 : FVec F S8x512x512x3 .f32 := Host.absf main_arg0
  let main_cst : FVec F S_ .f32 := constant S_ .f32 0x7F800000#32
  let main_v1 : FVec F S8x512x512x3 .f32 := broadcastInDim S8x512x512x3 ![] bcast_S_S8x512x512x3 main_cst
  let main_v2 : IVec S8x512x512x3 1 := cmpf .olt main_v0 main_v1
  let main_c : IVec S_ 1 := constantI S_ 1 1#1
  let main_v3 : IVec S_ 1 := (fun x v => Host.reduce IntOp.andi x v reducesTo_S8x512x512x3_S_d0_1_2_3 h_S_) main_v2 main_c
  let main_v4 : FVec F S8x512x512x25 .f32 := Host.absf main_arg1
  let main_cst_0 : FVec F S_ .f32 := constant S_ .f32 0x7F800000#32
  let main_v5 : FVec F S8x512x512x25 .f32 := broadcastInDim S8x512x512x25 ![] bcast_S_S8x512x512x25 main_cst_0
  let main_v6 : IVec S8x512x512x25 1 := cmpf .olt main_v4 main_v5
  let main_c_1 : IVec S_ 1 := constantI S_ 1 1#1
  let main_v7 : IVec S_ 1 := (fun x v => Host.reduce IntOp.andi x v reducesTo_S8x512x512x25_S_d0_1_2_3 h_S_) main_v6 main_c_1
  let main_v8 : IVec S_ 1 := andi main_v3 main_v7
  main_v8
-- ==== Kernel.lean ====
abbrev S8x512x512x3 : Shape := ⟨4, ![8, 512, 512, 3]⟩
abbrev S8x512x512x25 : Shape := ⟨4, ![8, 512, 512, 25]⟩
abbrev S_ : Shape := ⟨0, ![]⟩
abbrev S8x516x516x3 : Shape := ⟨4, ![8, 516, 516, 3]⟩
abbrev S1x516x516x3 : Shape := ⟨4, ![1, 516, 516, 3]⟩
abbrev S1x128x512x25 : Shape := ⟨4, ![1, 128, 512, 25]⟩
abbrev S1x128x512x3 : Shape := ⟨4, ![1, 128, 512, 3]⟩
abbrev S128x512x3 : Shape := ⟨3, ![128, 512, 3]⟩
abbrev S1x128x512x1 : Shape := ⟨4, ![1, 128, 512, 1]⟩
abbrev S128x512x1 : Shape := ⟨3, ![128, 512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8x512x512x3, .f32⟩
  | .hbm, ⟨1, _⟩ => ⟨S8x512x512x25, .f32⟩
  | .hbm, ⟨2, _⟩ => ⟨S_, .i32⟩
  | .hbm, ⟨3, _⟩ => ⟨S_, .f32⟩
  | .hbm, ⟨4, _⟩ => ⟨S8x516x516x3, .f32⟩
  | .hbm, ⟨5, _⟩ => ⟨S8x512x512x3, .f32⟩
  | .local _ .vmem, ⟨0, _⟩ => ⟨S1x516x516x3, .f32⟩
  | .local _ .vmem, ⟨1, _⟩ => ⟨S1x516x516x3, .f32⟩
  | .local _ .vmem, ⟨2, _⟩ => ⟨S1x128x512x25, .f32⟩
  | .local _ .vmem, ⟨3, _⟩ => ⟨S1x128x512x25, .f32⟩
  | .local _ .vmem, ⟨4, _⟩ => ⟨S1x128x512x3, .f32⟩
  | .local _ .vmem, ⟨5, _⟩ => ⟨S1x128x512x3, .f32⟩
  | _, _ => ⟨S8x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) (c0_i32 : BitVec 32) : Fin 4 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k0_off2 (i : grid0.Coords) (c0_i32_6 : BitVec 32) : Fin 4 → Nat :=
  let c0_7 : Index := 0#32
  let arg1 : BitVec 32 := BitVec.ofNat 32 (i 1).val
  let c128_i32 : BitVec 32 := 128#32
  let v0 : BitVec 32 := Scalar.muli arg1 c128_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k0_off3 (i : grid0.Coords) (c0_i32_13 : BitVec 32) : Fin 4 → Nat :=
  let c0_14 : Index := 0#32
  let arg1 : BitVec 32 := BitVec.ofNat 32 (i 1).val
  let c128_i32 : BitVec 32 := 128#32
  let v0 : BitVec 32 := Scalar.muli arg1 c128_i32
  let v1 : BitVec 32 := v0
  let v21 : BitVec 32 := Scalar.addi v1 c0_i32_13
  let v22 : Index := Scalar.indexCast v21
  let c2 : Index := 2#32
  let c0_15 : Index := 0#32
  ![0, v22.toNat, 2, 0]
def k0_off4 (i : grid0.Coords) (c0_i32_20 : BitVec 32) : Fin 4 → Nat :=
  let c0_21 : Index := 0#32
  let arg1 : BitVec 32 := BitVec.ofNat 32 (i 1).val
  let c128_i32 : BitVec 32 := 128#32
  let v0 : BitVec 32 := Scalar.muli arg1 c128_i32
  let v1 : BitVec 32 := v0
  let v30 : BitVec 32 := Scalar.addi v1 c0_i32_20
  let v31 : Index := Scalar.indexCast v30
  let c3 : Index := 3#32
  let c0_22 : Index := 0#32
  ![0, v31.toNat, 3, 0]
def k0_off5 (i : grid0.Coords) (c0_i32_27 : BitVec 32) : Fin 4 → Nat :=
  let c0_28 : Index := 0#32
  let arg1 : BitVec 32 := BitVec.ofNat 32 (i 1).val
  let c128_i32 : BitVec 32 := 128#32
  let v0 : BitVec 32 := Scalar.muli arg1 c128_i32
  let v1 : BitVec 32 := v0
  let v39 : BitVec 32 := Scalar.addi v1 c0_i32_27
  let v40 : Index := Scalar.indexCast v39
  let c4 : Index := 4#32
  let c0_29 : Index := 0#32
  ![0, v40.toNat, 4, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x516x516x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x512x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x512x512x3_S8x516x516x3_000_220_220_000 : S8x512x512x3.Pads (![0, 2, 2, 0] : Fin 4 → Nat) ![0, 2, 2, 0] ![0, 0, 0, 0] S8x516x516x3
  h_S_ : 0 < S_.numel
  h_S1x128x512x3 : 0 < S1x128x512x3.numel
  shapeCasts_S1x128x512x3_S128x512x3 : S1x128x512x3.ShapeCasts S128x512x3
  inb_S1x128x512x25_S1x128x512x1_0_0_0_0 : ∀ a, (![0, 0, 0, 0] : Fin 4 → Nat) a + S1x128x512x1.size a ≤ S1x128x512x25.size a
  h_S1x128x512x1 : 0 < S1x128x512x1.numel
  shapeCasts_S1x128x512x1_S128x512x1 : S1x128x512x1.ShapeCasts S128x512x1
  broadcasts_S128x512x1_S128x512x3 : S128x512x1.Broadcasts S128x512x3
  inb_S1x128x512x25_S1x128x512x1_0_0_0_1 : ∀ a, (![0, 0, 0, 1] : Fin 4 → Nat) a + S1x128x512x1.size a ≤ S1x128x512x25.size a
  inb_S1x128x512x25_S1x128x512x1_0_0_0_2 : ∀ a, (![0, 0, 0, 2] : Fin 4 → Nat) a + S1x128x512x1.size a ≤ S1x128x512x25.size a
  inb_S1x128x512x25_S1x128x512x1_0_0_0_3 : ∀ a, (![0, 0, 0, 3] : Fin 4 → Nat) a + S1x128x512x1.size a ≤ S1x128x512x25.size a
  inb_S1x128x512x25_S1x128x512x1_0_0_0_4 : ∀ a, (![0, 0, 0, 4] : Fin 4 → Nat) a + S1x128x512x1.size a ≤ S1x128x512x25.size a
  inb_S1x128x512x25_S1x128x512x1_0_0_0_5 : ∀ a, (![0, 0, 0, 5] : Fin 4 → Nat) a + S1x128x512x1.size a ≤ S1x128x512x25.size a
  inb_S1x128x512x25_S1x128x512x1_0_0_0_6 : ∀ a, (![0, 0, 0, 6] : Fin 4 → Nat) a + S1x128x512x1.size a ≤ S1x128x512x25.size a
  inb_S1x128x512x25_S1x128x512x1_0_0_0_7 : ∀ a, (![0, 0, 0, 7] : Fin 4 → Nat) a + S1x128x512x1.size a ≤ S1x128x512x25.size a
  inb_S1x128x512x25_S1x128x512x1_0_0_0_8 : ∀ a, (![0, 0, 0, 8] : Fin 4 → Nat) a + S1x128x512x1.size a ≤ S1x128x512x25.size a
  inb_S1x128x512x25_S1x128x512x1_0_0_0_9 : ∀ a, (![0, 0, 0, 9] : Fin 4 → Nat) a + S1x128x512x1.size a ≤ S1x128x512x25.size a
  inb_S1x128x512x25_S1x128x512x1_0_0_0_10 : ∀ a, (![0, 0, 0, 10] : Fin 4 → Nat) a + S1x128x512x1.size a ≤ S1x128x512x25.size a
  inb_S1x128x512x25_S1x128x512x1_0_0_0_11 : ∀ a, (![0, 0, 0, 11] : Fin 4 → Nat) a + S1x128x512x1.size a ≤ S1x128x512x25.size a
  inb_S1x128x512x25_S1x128x512x1_0_0_0_12 : ∀ a, (![0, 0, 0, 12] : Fin 4 → Nat) a + S1x128x512x1.size a ≤ S1x128x512x25.size a
  inb_S1x128x512x25_S1x128x512x1_0_0_0_13 : ∀ a, (![0, 0, 0, 13] : Fin 4 → Nat) a + S1x128x512x1.size a ≤ S1x128x512x25.size a
  inb_S1x128x512x25_S1x128x512x1_0_0_0_14 : ∀ a, (![0, 0, 0, 14] : Fin 4 → Nat) a + S1x128x512x1.size a ≤ S1x128x512x25.size a
  inb_S1x128x512x25_S1x128x512x1_0_0_0_15 : ∀ a, (![0, 0, 0, 15] : Fin 4 → Nat) a + S1x128x512x1.size a ≤ S1x128x512x25.size a
  inb_S1x128x512x25_S1x128x512x1_0_0_0_16 : ∀ a, (![0, 0, 0, 16] : Fin 4 → Nat) a + S1x128x512x1.size a ≤ S1x128x512x25.size a
  inb_S1x128x512x25_S1x128x512x1_0_0_0_17 : ∀ a, (![0, 0, 0, 17] : Fin 4 → Nat) a + S1x128x512x1.size a ≤ S1x128x512x25.size a
  inb_S1x128x512x25_S1x128x512x1_0_0_0_18 : ∀ a, (![0, 0, 0, 18] : Fin 4 → Nat) a + S1x128x512x1.size a ≤ S1x128x512x25.size a
  inb_S1x128x512x25_S1x128x512x1_0_0_0_19 : ∀ a, (![0, 0, 0, 19] : Fin 4 → Nat) a + S1x128x512x1.size a ≤ S1x128x512x25.size a
  inb_S1x128x512x25_S1x128x512x1_0_0_0_20 : ∀ a, (![0, 0, 0, 20] : Fin 4 → Nat) a + S1x128x512x1.size a ≤ S1x128x512x25.size a
  inb_S1x128x512x25_S1x128x512x1_0_0_0_21 : ∀ a, (![0, 0, 0, 21] : Fin 4 → Nat) a + S1x128x512x1.size a ≤ S1x128x512x25.size a
  inb_S1x128x512x25_S1x128x512x1_0_0_0_22 : ∀ a, (![0, 0, 0, 22] : Fin 4 → Nat) a + S1x128x512x1.size a ≤ S1x128x512x25.size a
  inb_S1x128x512x25_S1x128x512x1_0_0_0_23 : ∀ a, (![0, 0, 0, 23] : Fin 4 → Nat) a + S1x128x512x1.size a ≤ S1x128x512x25.size a
  inb_S1x128x512x25_S1x128x512x1_0_0_0_24 : ∀ a, (![0, 0, 0, 24] : Fin 4 → Nat) a + S1x128x512x1.size a ≤ S1x128x512x25.size a
  inb_S1x128x512x3_S1x128x512x3_0_0_0_0 : ∀ a, (![0, 0, 0, 0] : Fin 4 → Nat) a + S1x128x512x3.size a ≤ S1x128x512x3.size a
  shapeCasts_S128x512x3_S1x128x512x3 : S128x512x3.ShapeCasts S1x128x512x3
  hrank0 : 0 < grid0.rank
  k0_mult1_dvd : ∀ i : grid0.Coords, 128 ∣ (k0_mult1 i).toNat
  k0_off1_inb : ∀ i : grid0.Coords, ∀ (r : Fin 5), ∀ a, (k0_off1 i (BitVec.ofNat 32 r.val)) a + S1x128x512x3.size a ≤ S1x516x516x3.size a
  k0_off2_inb : ∀ i : grid0.Coords, ∀ (r : Fin 5), ∀ a, (k0_off2 i (BitVec.ofNat 32 r.val)) a + S1x128x512x3.size a ≤ S1x516x516x3.size a
  k0_off3_inb : ∀ i : grid0.Coords, ∀ (r : Fin 5), ∀ a, (k0_off3 i (BitVec.ofNat 32 r.val)) a + S1x128x512x3.size a ≤ S1x516x516x3.size a
  k0_off4_inb : ∀ i : grid0.Coords, ∀ (r : Fin 5), ∀ a, (k0_off4 i (BitVec.ofNat 32 r.val)) a + S1x128x512x3.size a ≤ S1x516x516x3.size a
  k0_off5_inb : ∀ i : grid0.Coords, ∀ (r : Fin 5), ∀ a, (k0_off5 i (BitVec.ofNat 32 r.val)) a + S1x128x512x3.size a ≤ S1x516x516x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x516x516x3.size a ≤ S8x516x516x3.size a
  hwx0_0 : ∀ i : grid0.Coords, EltTy.bits .f32 = 32 ∨ (Rect.block (s := S8x516x516x3) S1x516x516x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512x25.size a ≤ S8x512x512x25.size a
  hwx0_1 : ∀ i : grid0.Coords, EltTy.bits .f32 = 32 ∨ (Rect.block (s := S8x512x512x25) S1x128x512x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512x3.size a ≤ S8x512x512x3.size a
  hwx0_2 : ∀ i : grid0.Coords, EltTy.bits .f32 = 32 ∨ (Rect.block (s := S8x512x512x3) S1x128x512x3.size (cc0_transform_2 i) (hinb0_2 i)).WholeWords (EltTy.packing .f32)

variable [Facts₀]

abbrev win0_0 : Pipeline.Window sig grid0 :=
  Pipeline.Window.ofSpec (Memref.whole main_v0) S1x516x516x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x512x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x512x3 : Shape := ⟨4, ![8, 512, 512, 3]⟩
abbrev S8x512x512x25 : Shape := ⟨4, ![8, 512, 512, 25]⟩
abbrev S_ : Shape := ⟨0, ![]⟩
abbrev S8x516x516x3 : Shape := ⟨4, ![8, 516, 516, 3]⟩
abbrev S8x512x512x1 : Shape := ⟨4, ![8, 512, 512, 1]⟩

abbrev nBuf : Space → Nat
  | .hbm => 132
  | .vmem => 0
  | .smem => 0
  | _ => 0

abbrev hbmTy0_0 (i : Nat) : BufTy := match i % 128 with
  | 0 => ⟨S8x512x512x3, .f32⟩
  | 1 => ⟨S8x512x512x25, .f32⟩
  | 2 => ⟨S_, .i32⟩
  | 3 => ⟨S_, .f32⟩
  | 4 => ⟨S8x516x516x3, .f32⟩
  | 5 => ⟨S_, .f32⟩
  | 6 => ⟨S8x512x512x3, .f32⟩
  | 7 => ⟨S8x512x512x3, .f32⟩
  | 8 => ⟨S8x512x512x1, .f32⟩
  | 9 => ⟨S8x512x512x3, .f32⟩
  | 10 => ⟨S8x512x512x3, .f32⟩
  | 11 => ⟨S8x512x512x3, .f32⟩
  | 12 => ⟨S8x512x512x3, .f32⟩
  | 13 => ⟨S8x512x512x1, .f32⟩
  | 14 => ⟨S8x512x512x3, .f32⟩
  | 15 => ⟨S8x512x512x3, .f32⟩
  | 16 => ⟨S8x512x512x3, .f32⟩
  | 17 => ⟨S8x512x512x3, .f32⟩
  | 18 => ⟨S8x512x512x1, .f32⟩
  | 19 => ⟨S8x512x512x3, .f32⟩
  | 20 => ⟨S8x512x512x3, .f32⟩
  | 21 => ⟨S8x512x512x3, .f32⟩
  | 22 => ⟨S8x512x512x3, .f32⟩
  | 23 => ⟨S8x512x512x1, .f32⟩
  | 24 => ⟨S8x512x512x3, .f32⟩
  | 25 => ⟨S8x512x512x3, .f32⟩
  | 26 => ⟨S8x512x512x3, .f32⟩
  | 27 => ⟨S8x512x512x3, .f32⟩
  | 28 => ⟨S8x512x512x1, .f32⟩
  | 29 => ⟨S8x512x512x3, .f32⟩
  | 30 => ⟨S8x512x512x3, .f32⟩
  | 31 => ⟨S8x512x512x3, .f32⟩
  | 32 => ⟨S8x512x512x3, .f32⟩
  | 33 => ⟨S8x512x512x1, .f32⟩
  | 34 => ⟨S8x512x512x3, .f32⟩
  | 35 => ⟨S8x512x512x3, .f32⟩
  | 36 => ⟨S8x512x512x3, .f32⟩
  | 37 => ⟨S8x512x512x3, .f32⟩
  | 38 => ⟨S8x512x512x1, .f32⟩
  | 39 => ⟨S8x512x512x3, .f32⟩
  | 40 => ⟨S8x512x512x3, .f32⟩
  | 41 => ⟨S8x512x512x3, .f32⟩
  | 42 => ⟨S8x512x512x3, .f32⟩
  | 43 => ⟨S8x512x512x1, .f32⟩
  | 44 => ⟨S8x512x512x3, .f32⟩
  | 45 => ⟨S8x512x512x3, .f32⟩
  | 46 => ⟨S8x512x512x3, .f32⟩
  | 47 => ⟨S8x512x512x3, .f32⟩
  | 48 => ⟨S8x512x512x1, .f32⟩
  | 49 => ⟨S8x512x512x3, .f32⟩
  | 50 => ⟨S8x512x512x3, .f32⟩
  | 51 => ⟨S8x512x512x3, .f32⟩
  | 52 => ⟨S8x512x512x3, .f32⟩
  | 53 => ⟨S8x512x512x1, .f32⟩
  | 54 => ⟨S8x512x512x3, .f32⟩
  | 55 => ⟨S8x512x512x3, .f32⟩
  | 56 => ⟨S8x512x512x3, .f32⟩
  | 57 => ⟨S8x512x512x3, .f32⟩
  | 58 => ⟨S8x512x512x1, .f32⟩
  | 59 => ⟨S8x512x512x3, .f32⟩
  | 60 => ⟨S8x512x512x3, .f32⟩
  | 61 => ⟨S8x512x512x3, .f32⟩
  | 62 => ⟨S8x512x512x3, .f32⟩
  | 63 => ⟨S8x512x512x1, .f32⟩
  | 64 => ⟨S8x512x512x3, .f32⟩
  | 65 => ⟨S8x512x512x3, .f32⟩
  | 66 => ⟨S8x512x512x3, .f32⟩
  | 67 => ⟨S8x512x512x3, .f32⟩
  | 68 => ⟨S8x512x512x1, .f32⟩
  | 69 => ⟨S8x512x512x3, .f32⟩
  | 70 => ⟨S8x512x512x3, .f32⟩
  | 71 => ⟨S8x512x512x3, .f32⟩
  | 72 => ⟨S8x512x512x3, .f32⟩
  | 73 => ⟨S8x512x512x1, .f32⟩
  | 74 => ⟨S8x512x512x3, .f32⟩
  | 75 => ⟨S8x512x512x3, .f32⟩
  | 76 => ⟨S8x512x512x3, .f32⟩
  | 77 => ⟨S8x512x512x3, .f32⟩
  | 78 => ⟨S8x512x512x1, .f32⟩
  | 79 => ⟨S8x512x512x3, .f32⟩
  | 80 => ⟨S8x512x512x3, .f32⟩
  | 81 => ⟨S8x512x512x3, .f32⟩
  | 82 => ⟨S8x512x512x3, .f32⟩
  | 83 => ⟨S8x512x512x1, .f32⟩
  | 84 => ⟨S8x512x512x3, .f32⟩
  | 85 => ⟨S8x512x512x3, .f32⟩
  | 86 => ⟨S8x512x512x3, .f32⟩
  | 87 => ⟨S8x512x512x3, .f32⟩
  | 88 => ⟨S8x512x512x1, .f32⟩
  | 89 => ⟨S8x512x512x3, .f32⟩
  | 90 => ⟨S8x512x512x3, .f32⟩
  | 91 => ⟨S8x512x512x3, .f32⟩
  | 92 => ⟨S8x512x512x3, .f32⟩
  | 93 => ⟨S8x512x512x1, .f32⟩
  | 94 => ⟨S8x512x512x3, .f32⟩
  | 95 => ⟨S8x512x512x3, .f32⟩
  | 96 => ⟨S8x512x512x3, .f32⟩
  | 97 => ⟨S8x512x512x3, .f32⟩
  | 98 => ⟨S8x512x512x1, .f32⟩
  | 99 => ⟨S8x512x512x3, .f32⟩
  | 100 => ⟨S8x512x512x3, .f32⟩
  | 101 => ⟨S8x512x512x3, .f32⟩
  | 102 => ⟨S8x512x512x3, .f32⟩
  | 103 => ⟨S8x512x512x1, .f32⟩
  | 104 => ⟨S8x512x512x3, .f32⟩
  | 105 => ⟨S8x512x512x3, .f32⟩
  | 106 => ⟨S8x512x512x3, .f32⟩
  | 107 => ⟨S8x512x512x3, .f32⟩
  | 108 => ⟨S8x512x512x1, .f32⟩
  | 109 => ⟨S8x512x512x3, .f32⟩
  | 110 => ⟨S8x512x512x3, .f32⟩
  | 111 => ⟨S8x512x512x3, .f32⟩
  | 112 => ⟨S8x512x512x3, .f32⟩
  | 113 => ⟨S8x512x512x1, .f32⟩
  | 114 => ⟨S8x512x512x3, .f32⟩
  | 115 => ⟨S8x512x512x3, .f32⟩
  | 116 => ⟨S8x512x512x3, .f32⟩
  | 117 => ⟨S8x512x512x3, .f32⟩
  | 118 => ⟨S8x512x512x1, .f32⟩
  | 119 => ⟨S8x512x512x3, .f32⟩
  | 120 => ⟨S8x512x512x3, .f32⟩
  | 121 => ⟨S8x512x512x3, .f32⟩
  | 122 => ⟨S8x512x512x3, .f32⟩
  | 123 => ⟨S8x512x512x1, .f32⟩
  | 124 => ⟨S8x512x512x3, .f32⟩
  | 125 => ⟨S8x512x512x3, .f32⟩
  | 126 => ⟨S8x512x512x3, .f32⟩
  | 127 => ⟨S8x512x512x3, .f32⟩
  | _ => ⟨S8x512x512x3, .f32⟩

abbrev hbmTy0_1 (i : Nat) : BufTy := match i % 128 with
  | 0 => ⟨S8x512x512x1, .f32⟩
  | 1 => ⟨S8x512x512x3, .f32⟩
  | 2 => ⟨S8x512x512x3, .f32⟩
  | 3 => ⟨S8x512x512x3, .f32⟩
  | _ => ⟨S8x512x512x3, .f32⟩

abbrev hbmTy (i : Nat) : BufTy := match i / 128 with
  | 0 => hbmTy0_0 i
  | 1 => hbmTy0_1 i
  | _ => ⟨S8x512x512x3, .f32⟩

abbrev bufTy : (tb : Table) → Fin (tcTables nBuf tb) → BufTy
  | .hbm, ⟨i, _⟩ => hbmTy i
  | _, _ => ⟨S8x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩

abbrev nD : Nat := 1
abbrev τ : Topo := Topo.v7x

variable {F : FTy → Type} [FloatOps F]

class Facts₀ : Prop where
  pads_S8x512x512x3_S8x516x516x3_000_220_220_000 : S8x512x512x3.Pads (![0, 2, 2, 0] : Fin 4 → Nat) ![0, 2, 2, 0] ![0, 0, 0, 0] S8x516x516x3
  h_S_ : 0 < S_.numel
  bcast_S_S8x512x512x3 : S_.BroadcastsInDim S8x512x512x3 (![] : Fin 0 → Fin S8x512x512x3.rank)
  slices_S8x516x516x3_S8x512x512x3_0_0_0_0 : S8x516x516x3.Slices ![0, 0, 0, 0] S8x512x512x3
  slices_S8x512x512x25_S8x512x512x1_0_0_0_0 : S8x512x512x25.Slices ![0, 0, 0, 0] S8x512x512x1
  bcast_S8x512x512x1_S8x512x512x3_0_1_2_3 : S8x512x512x1.BroadcastsInDim S8x512x512x3 (![0, 1, 2, 3] : Fin 4 → Fin S8x512x512x3.rank)
  slices_S8x516x516x3_S8x512x512x3_0_0_1_0 : S8x516x516x3.Slices ![0, 0, 1, 0] S8x512x512x3
  slices_S8x512x512x25_S8x512x512x1_0_0_0_1 : S8x512x512x25.Slices ![0, 0, 0, 1] S8x512x512x1
  slices_S8x516x516x3_S8x512x512x3_0_0_2_0 : S8x516x516x3.Slices ![0, 0, 2, 0] S8x512x512x3
  slices_S8x512x512x25_S8x512x512x1_0_0_0_2 : S8x512x512x25.Slices ![0, 0, 0, 2] S8x512x512x1
  slices_S8x516x516x3_S8x512x512x3_0_0_3_0 : S8x516x516x3.Slices ![0, 0, 3, 0] S8x512x512x3
  slices_S8x512x512x25_S8x512x512x1_0_0_0_3 : S8x512x512x25.Slices ![0, 0, 0, 3] S8x512x512x1
  slices_S8x516x516x3_S8x512x512x3_0_0_4_0 : S8x516x516x3.Slices ![0, 0, 4, 0] S8x512x512x3
  slices_S8x512x512x25_S8x512x512x1_0_0_0_4 : S8x512x512x25.Slices ![0, 0, 0, 4] S8x512x512x1
  slices_S8x516x516x3_S8x512x512x3_0_1_0_0 : S8x516x516x3.Slices ![0, 1, 0, 0] S8x512x512x3
  slices_S8x512x512x25_S8x512x512x1_0_0_0_5 : S8x512x512x25.Slices ![0, 0, 0, 5] S8x512x512x1
  slices_S8x516x516x3_S8x512x512x3_0_1_1_0 : S8x516x516x3.Slices ![0, 1, 1, 0] S8x512x512x3
  slices_S8x512x512x25_S8x512x512x1_0_0_0_6 : S8x512x512x25.Slices ![0, 0, 0, 6] S8x512x512x1
  slices_S8x516x516x3_S8x512x512x3_0_1_2_0 : S8x516x516x3.Slices ![0, 1, 2, 0] S8x512x512x3
  slices_S8x512x512x25_S8x512x512x1_0_0_0_7 : S8x512x512x25.Slices ![0, 0, 0, 7] S8x512x512x1
  slices_S8x516x516x3_S8x512x512x3_0_1_3_0 : S8x516x516x3.Slices ![0, 1, 3, 0] S8x512x512x3
  slices_S8x512x512x25_S8x512x512x1_0_0_0_8 : S8x512x512x25.Slices ![0, 0, 0, 8] S8x512x512x1
  slices_S8x516x516x3_S8x512x512x3_0_1_4_0 : S8x516x516x3.Slices ![0, 1, 4, 0] S8x512x512x3
  slices_S8x512x512x25_S8x512x512x1_0_0_0_9 : S8x512x512x25.Slices ![0, 0, 0, 9] S8x512x512x1
  slices_S8x516x516x3_S8x512x512x3_0_2_0_0 : S8x516x516x3.Slices ![0, 2, 0, 0] S8x512x512x3
  slices_S8x512x512x25_S8x512x512x1_0_0_0_10 : S8x512x512x25.Slices ![0, 0, 0, 10] S8x512x512x1
  slices_S8x516x516x3_S8x512x512x3_0_2_1_0 : S8x516x516x3.Slices ![0, 2, 1, 0] S8x512x512x3
  slices_S8x512x512x25_S8x512x512x1_0_0_0_11 : S8x512x512x25.Slices ![0, 0, 0, 11] S8x512x512x1
  slices_S8x516x516x3_S8x512x512x3_0_2_2_0 : S8x516x516x3.Slices ![0, 2, 2, 0] S8x512x512x3
  slices_S8x512x512x25_S8x512x512x1_0_0_0_12 : S8x512x512x25.Slices ![0, 0, 0, 12] S8x512x512x1
  slices_S8x516x516x3_S8x512x512x3_0_2_3_0 : S8x516x516x3.Slices ![0, 2, 3, 0] S8x512x512x3
  slices_S8x512x512x25_S8x512x512x1_0_0_0_13 : S8x512x512x25.Slices ![0, 0, 0, 13] S8x512x512x1
  slices_S8x516x516x3_S8x512x512x3_0_2_4_0 : S8x516x516x3.Slices ![0, 2, 4, 0] S8x512x512x3
  slices_S8x512x512x25_S8x512x512x1_0_0_0_14 : S8x512x512x25.Slices ![0, 0, 0, 14] S8x512x512x1
  slices_S8x516x516x3_S8x512x512x3_0_3_0_0 : S8x516x516x3.Slices ![0, 3, 0, 0] S8x512x512x3
  slices_S8x512x512x25_S8x512x512x1_0_0_0_15 : S8x512x512x25.Slices ![0, 0, 0, 15] S8x512x512x1
  slices_S8x516x516x3_S8x512x512x3_0_3_1_0 : S8x516x516x3.Slices ![0, 3, 1, 0] S8x512x512x3
  slices_S8x512x512x25_S8x512x512x1_0_0_0_16 : S8x512x512x25.Slices ![0, 0, 0, 16] S8x512x512x1
  slices_S8x516x516x3_S8x512x512x3_0_3_2_0 : S8x516x516x3.Slices ![0, 3, 2, 0] S8x512x512x3
  slices_S8x512x512x25_S8x512x512x1_0_0_0_17 : S8x512x512x25.Slices ![0, 0, 0, 17] S8x512x512x1
  slices_S8x516x516x3_S8x512x512x3_0_3_3_0 : S8x516x516x3.Slices ![0, 3, 3, 0] S8x512x512x3
  slices_S8x512x512x25_S8x512x512x1_0_0_0_18 : S8x512x512x25.Slices ![0, 0, 0, 18] S8x512x512x1
  slices_S8x516x516x3_S8x512x512x3_0_3_4_0 : S8x516x516x3.Slices ![0, 3, 4, 0] S8x512x512x3
  slices_S8x512x512x25_S8x512x512x1_0_0_0_19 : S8x512x512x25.Slices ![0, 0, 0, 19] S8x512x512x1
  slices_S8x516x516x3_S8x512x512x3_0_4_0_0 : S8x516x516x3.Slices ![0, 4, 0, 0] S8x512x512x3
  slices_S8x512x512x25_S8x512x512x1_0_0_0_20 : S8x512x512x25.Slices ![0, 0, 0, 20] S8x512x512x1
  slices_S8x516x516x3_S8x512x512x3_0_4_1_0 : S8x516x516x3.Slices ![0, 4, 1, 0] S8x512x512x3
  slices_S8x512x512x25_S8x512x512x1_0_0_0_21 : S8x512x512x25.Slices ![0, 0, 0, 21] S8x512x512x1
  slices_S8x516x516x3_S8x512x512x3_0_4_2_0 : S8x516x516x3.Slices ![0, 4, 2, 0] S8x512x512x3
  slices_S8x512x512x25_S8x512x512x1_0_0_0_22 : S8x512x512x25.Slices ![0, 0, 0, 22] S8x512x512x1
  slices_S8x516x516x3_S8x512x512x3_0_4_3_0 : S8x516x516x3.Slices ![0, 4, 3, 0] S8x512x512x3
  slices_S8x512x512x25_S8x512x512x1_0_0_0_23 : S8x512x512x25.Slices ![0, 0, 0, 23] S8x512x512x1
  slices_S8x516x516x3_S8x512x512x3_0_4_4_0 : S8x516x516x3.Slices ![0, 4, 4, 0] S8x512x512x3
  slices_S8x512x512x25_S8x512x512x1_0_0_0_24 : S8x512x512x25.Slices ![0, 0, 0, 24] S8x512x512x1

variable [Facts₀]

class Facts : Prop extends Facts₀ where

variable [Facts]
-- ==== Proof.ConvSpec.lean ====
/-
  The local (untied) convolution as one function of the zero-padded input and the per-pixel weights.

  For a padded input `xp` of shape [8, 516, 516, 3] (two rows and two columns of zeros on each side of a
  [8, 512, 512, 3] image) and weights `wt` of shape [8, 512, 512, 25] — one 5×5 kernel PER PIXEL, shared by the three
  channels — the result at (n, h, w, c) is the sum, in the fixed order k = 0, 1, …, 24 and starting from 0, of the taps

      xp (n, h + k / 5, w + k % 5, c) · wt (n, h, w, k).

  Both programs add the 25 taps in this same order, so no law of the extended reals beyond reading the operations at
  an index is needed: each side is shown to be `conv` tap by tap. `tap_host` reads one tap as the host spells it (a slice
  of the padded input times a one-lane slice of the weights broadcast over the channels); `tap_vec` reads it as the vector
  unit spells it on one block of 128 rows (a window of the resident padded sample, one lane of the block's weights
  broadcast over the channels), and `tapBlk_eq` places the block in the arrays.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody

noncomputable section

namespace Cert.ConvSpec

open Idealize.ShloMosaic Idealize.ShloMosaic.ValueIdx

/-- The zero-padded input, the per-pixel weights, one weight lane, and the result. -/
abbrev SPad : Shape := ⟨4, ![8, 516, 516, 3]⟩
abbrev SWt : Shape := ⟨4, ![8, 512, 512, 25]⟩
abbrev SLane : Shape := ⟨4, ![8, 512, 512, 1]⟩
abbrev SOut : Shape := ⟨4, ![8, 512, 512, 3]⟩

/-- Tap `k` at offset (dh, dw) of the 5×5 window at pixel (n, h, w), channel c. -/
def tapAt (xp : FVec Ideal SPad .f32) (wt : FVec Ideal SWt .f32) (n : Fin 8) (h w : Fin 512) (c : Fin 3)
    (dh dw k : Nat) (hrow : h.val + dh < 516) (hcol : w.val + dw < 516) (hk : k < 25) : EReal :=
  xp (ix4 n ⟨h.val + dh, hrow⟩ ⟨w.val + dw, hcol⟩ c) * wt (ix4 n h w ⟨k, hk⟩)

/-- The 25 taps added to 0 in the order k = 0 … 24 (k = 5·dh + dw). -/
def convAt (xp : FVec Ideal SPad .f32) (wt : FVec Ideal SWt .f32) (n : Fin 8) (h w : Fin 512) (c : Fin 3) : EReal :=
  have hh := h.isLt
  have hw := w.isLt
  0 + tapAt xp wt n h w c 0 0 0 (by omega) (by omega) (by decide)
    + tapAt xp wt n h w c 0 1 1 (by omega) (by omega) (by decide)
    + tapAt xp wt n h w c 0 2 2 (by omega) (by omega) (by decide)
    + tapAt xp wt n h w c 0 3 3 (by omega) (by omega) (by decide)
    + tapAt xp wt n h w c 0 4 4 (by omega) (by omega) (by decide)
    + tapAt xp wt n h w c 1 0 5 (by omega) (by omega) (by decide)
    + tapAt xp wt n h w c 1 1 6 (by omega) (by omega) (by decide)
    + tapAt xp wt n h w c 1 2 7 (by omega) (by omega) (by decide)
    + tapAt xp wt n h w c 1 3 8 (by omega) (by omega) (by decide)
    + tapAt xp wt n h w c 1 4 9 (by omega) (by omega) (by decide)
    + tapAt xp wt n h w c 2 0 10 (by omega) (by omega) (by decide)
    + tapAt xp wt n h w c 2 1 11 (by omega) (by omega) (by decide)
    + tapAt xp wt n h w c 2 2 12 (by omega) (by omega) (by decide)
    + tapAt xp wt n h w c 2 3 13 (by omega) (by omega) (by decide)
    + tapAt xp wt n h w c 2 4 14 (by omega) (by omega) (by decide)
    + tapAt xp wt n h w c 3 0 15 (by omega) (by omega) (by decide)
    + tapAt xp wt n h w c 3 1 16 (by omega) (by omega) (by decide)
    + tapAt xp wt n h w c 3 2 17 (by omega) (by omega) (by decide)
    + tapAt xp wt n h w c 3 3 18 (by omega) (by omega) (by decide)
    + tapAt xp wt n h w c 3 4 19 (by omega) (by omega) (by decide)
    + tapAt xp wt n h w c 4 0 20 (by omega) (by omega) (by decide)
    + tapAt xp wt n h w c 4 1 21 (by omega) (by omega) (by decide)
    + tapAt xp wt n h w c 4 2 22 (by omega) (by omega) (by decide)
    + tapAt xp wt n h w c 4 3 23 (by omega) (by omega) (by decide)
    + tapAt xp wt n h w c 4 4 24 (by omega) (by omega) (by decide)

/-- The local convolution of the padded input with the per-pixel weights, as a whole array. -/
def conv (xp : FVec Ideal SPad .f32) (wt : FVec Ideal SWt .f32) : FVec Ideal SOut .f32 :=
  fun i => convAt xp wt (i 0) (i 1) (i 2) (i 3)

theorem conv_ix4 (xp : FVec Ideal SPad .f32) (wt : FVec Ideal SWt .f32) (n : Fin 8) (h w : Fin 512) (c : Fin 3) :
    conv xp wt (ix4 n h w c) = convAt xp wt n h w c := rfl

/-- The convolution at an index known by its four coordinates. -/
theorem conv_of_coords (xp : FVec Ideal SPad .f32) (wt : FVec Ideal SWt .f32) (j : SOut.Idx) (n : Fin 8) (h w : Fin 512)
    (c : Fin 3) (h0 : (j 0).val = n.val) (h1 : (j 1).val = h.val) (h2 : (j 2).val = w.val) (h3 : (j 3).val = c.val) :
    conv xp wt j = convAt xp wt n h w c := by
  have e : j = ix4 n h w c := by
    funext a
    apply Fin.ext
    match a with
    | ⟨0, _⟩ => exact h0
    | ⟨1, _⟩ => exact h1
    | ⟨2, _⟩ => exact h2
    | ⟨3, _⟩ => exact h3
  rw [e]
  rfl

/-- The input [8, 512, 512, 3] with two rows and two columns of the padding value — the integer 0 converted, which is
    the real 0 — on each side: what both programs' `jnp.pad` computes before anything else. -/
abbrev SIn : Shape := ⟨4, ![8, 512, 512, 3]⟩
def zeroPad (x : FVec Ideal SIn .f32) (hp : SIn.Pads ![0, 2, 2, 0] ![0, 2, 2, 0] ![0, 0, 0, 0] SPad)
    (h0 : 0 < (⟨0, ![]⟩ : Shape).numel) : FVec Ideal SPad .f32 :=
  pad SPad ![0, 2, 2, 0] ![0, 2, 2, 0] ![0, 0, 0, 0] x (sitofp (F := Ideal) .f32 (constantI ⟨0, ![]⟩ 32 0#32)) hp h0

/-! ## The sum starts from zero on both sides -/

/-- The host's starting value: the zero word broadcast to the whole result. -/
theorem zero_host (hb : (⟨0, ![]⟩ : Shape).BroadcastsInDim SOut ![]) (i : SOut.Idx) :
    broadcastInDim SOut ![] hb (constant (F := Ideal) ⟨0, ![]⟩ .f32 0x00000000#32) i = (0 : EReal) :=
  Ideal.ofBits_zero_f32

/-! ## One tap as the host spells it -/

/-- A [8, 512, 512, 3] slice of the padded input at row offset `dh` starts at most 4 rows down. -/
theorem row_le {dh dw : Nat} (hs : SPad.Slices ![0, dh, dw, 0] SOut) : dh ≤ 4 := by
  obtain ⟨_, h⟩ := hs
  have h1 := h ⟨1, by decide⟩
  change dh + 512 ≤ 516 at h1
  omega

/-- … and at most 4 columns in. -/
theorem col_le {dh dw : Nat} (hs : SPad.Slices ![0, dh, dw, 0] SOut) : dw ≤ 4 := by
  obtain ⟨_, h⟩ := hs
  have h2 := h ⟨2, by decide⟩
  change dw + 512 ≤ 516 at h2
  omega

/-- A one-lane slice of the weights takes one of the 25 lanes. -/
theorem lane_lt {k : Nat} (hs : SWt.Slices ![0, 0, 0, k] SLane) : k < 25 := by
  obtain ⟨_, h⟩ := hs
  have h3 := h ⟨3, by decide⟩
  change k + 1 ≤ 25 at h3
  omega

/-- The host's tap: the slice of the padded input at offset (dh, dw), times lane `k` of the weights broadcast over
    the three channels, read at (n, h, w, c). -/
theorem tap_host (xp : FVec Ideal SPad .f32) (wt : FVec Ideal SWt .f32) (dh dw k : Nat)
    (hs : SPad.Slices ![0, dh, dw, 0] SOut) (hs' : SWt.Slices ![0, 0, 0, k] SLane)
    (hb : SLane.BroadcastsInDim SOut ![0, 1, 2, 3]) (n : Fin 8) (h w : Fin 512) (c : Fin 3) :
    mulf (extractStridedSlice SOut ![0, dh, dw, 0] xp hs)
        (broadcastInDim SOut ![0, 1, 2, 3] hb (extractStridedSlice SLane ![0, 0, 0, k] wt hs')) (ix4 n h w c)
      = tapAt xp wt n h w c dh dw k (by have := row_le hs; have := h.isLt; omega) (by have := col_le hs; have := w.isLt; omega)
          (lane_lt hs') := by
  have hdh := row_le hs
  have hdw := col_le hs
  have hk := lane_lt hs'
  have hh := h.isLt
  have hw := w.isLt
  show extractStridedSlice SOut ![0, dh, dw, 0] xp hs (ix4 n h w c)
      * broadcastInDim SOut ![0, 1, 2, 3] hb (extractStridedSlice SLane ![0, 0, 0, k] wt hs') (ix4 n h w c) = _
  rw [extractStridedSlice_apply ![0, dh, dw, 0] xp hs (ix4 n h w c)
      (ix4 n ⟨h.val + dh, by omega⟩ ⟨w.val + dw, by omega⟩ c) (fun a => match a with
        | ⟨0, _⟩ => by show n.val = 0 + n.val; omega
        | ⟨1, _⟩ => by show h.val + dh = dh + h.val; omega
        | ⟨2, _⟩ => by show w.val + dw = dw + w.val; omega
        | ⟨3, _⟩ => by show c.val = 0 + c.val; omega),
    broadcastInDim_apply ![0, 1, 2, 3] hb _ (ix4 n h w c) (ix4 n h w (0 : Fin 1)) (fun a => match a with
        | ⟨0, _⟩ => by show n.val = if (8 : Nat) = 1 then 0 else n.val; rw [if_neg (by decide)]
        | ⟨1, _⟩ => by show h.val = if (512 : Nat) = 1 then 0 else h.val; rw [if_neg (by decide)]
        | ⟨2, _⟩ => by show w.val = if (512 : Nat) = 1 then 0 else w.val; rw [if_neg (by decide)]
        | ⟨3, _⟩ => by show 0 = if (1 : Nat) = 1 then 0 else c.val; rw [if_pos rfl]),
    extractStridedSlice_apply ![0, 0, 0, k] wt hs' (ix4 n h w (0 : Fin 1)) (ix4 n h w ⟨k, hk⟩) (fun a => match a with
        | ⟨0, _⟩ => by show n.val = 0 + n.val; omega
        | ⟨1, _⟩ => by show h.val = 0 + h.val; omega
        | ⟨2, _⟩ => by show w.val = 0 + w.val; omega
        | ⟨3, _⟩ => by show k = k + 0; omega)]
  rfl

/-! ## One tap as the vector unit spells it, on one block of 128 rows

The kernel keeps one whole padded sample [1, 516, 516, 3] resident and, at a grid point, one block [1, 128, 512, 25]
of the weights. Tap `k` loads the [1, 128, 512, 3] window of the sample that starts `R` rows down and `W` columns
in, and lane `k` of the weight block; both lose their unit axis, the lane is broadcast over the three channels, and
the two are multiplied. -/

/-- One padded sample, one block of the weights, one lane of it, one block of the result, and the last three without
    their unit axis. -/
abbrev BPad : Shape := ⟨4, ![1, 516, 516, 3]⟩
abbrev BWt : Shape := ⟨4, ![1, 128, 512, 25]⟩
abbrev BLane : Shape := ⟨4, ![1, 128, 512, 1]⟩
abbrev BOut : Shape := ⟨4, ![1, 128, 512, 3]⟩
abbrev VLane : Shape := ⟨3, ![128, 512, 1]⟩
abbrev VOut : Shape := ⟨3, ![128, 512, 3]⟩

/-- The vector unit's starting value: the zero word splat over a block. -/
theorem zero_vec (y : VOut.Idx) : broadcast VOut (Scalar.ofBits (F := Ideal) .f32 0x00000000#32) y = (0 : EReal) :=
  Ideal.ofBits_zero_f32

/-- Tap `k` of a block: the sample at row `R + r`, column `W + w`, times lane `k` of the block's weights at (r, w). -/
def tapBlk (x0 : FVec Ideal BPad .f32) (x1 : FVec Ideal BWt .f32) (R W k : Nat) (r : Fin 128) (w : Fin 512) (c : Fin 3)
    (hR : R + r.val < 516) (hW : W + w.val < 516) (hk : k < 25) : EReal :=
  x0 (ix4 0 ⟨R + r.val, hR⟩ ⟨W + w.val, hW⟩ c) * x1 (ix4 0 r w ⟨k, hk⟩)

/-- A window of 128 rows that starts `R` rows down the padded sample ends inside it. -/
theorem win_row {R W : Nat} (inb : ∀ a, (![0, R, W, 0] : Fin 4 → Nat) a + (![1, 128, 512, 3] : Fin 4 → Nat) a ≤ BPad.size a)
    (r : Fin 128) : R + r.val < 516 := by
  have h1 := inb ⟨1, by decide⟩
  change R + 128 ≤ 516 at h1
  have := r.isLt
  omega

/-- … and so does a window of 512 columns that starts `W` columns in. -/
theorem win_col {R W : Nat} (inb : ∀ a, (![0, R, W, 0] : Fin 4 → Nat) a + (![1, 128, 512, 3] : Fin 4 → Nat) a ≤ BPad.size a)
    (w : Fin 512) : W + w.val < 516 := by
  have h2 := inb ⟨2, by decide⟩
  change W + 512 ≤ 516 at h2
  have := w.isLt
  omega

/-- A one-lane window of a weight block takes one of its 25 lanes. -/
theorem win_lane {k : Nat} (inb : ∀ a, (![0, 0, 0, k] : Fin 4 → Nat) a + (![1, 128, 512, 1] : Fin 4 → Nat) a ≤ BWt.size a) :
    k < 25 := by
  have h3 := inb ⟨3, by decide⟩
  change k + 1 ≤ 25 at h3
  omega

/-- The vector unit's tap read at (r, w, c): both loads read their buffer at the window's offset plus the index, the
    shape casts drop the unit axis, the broadcast repeats the lane over the channels. -/
theorem tap_vec (x0 : FVec Ideal BPad .f32) (x1 : FVec Ideal BWt .f32) (R W k : Nat)
    (inb0 : ∀ a, (![0, R, W, 0] : Fin 4 → Nat) a + (![1, 128, 512, 3] : Fin 4 → Nat) a ≤ BPad.size a)
    (inb1 : ∀ a, (![0, 0, 0, k] : Fin 4 → Nat) a + (![1, 128, 512, 1] : Fin 4 → Nat) a ≤ BWt.size a)
    (h1 : BOut.ShapeCasts VOut) (h2 : BLane.ShapeCasts VLane) (h3 : VLane.Broadcasts VOut)
    (r : Fin 128) (w : Fin 512) (c : Fin 3) :
    mulf (F := Ideal) (φ := .f32) (shapeCast VOut (View.ld (Val := Elt Ideal) (e' := EltTy.f32) x0 (Rect.unit (s := BPad) ![0, R, W, 0] ![1, 128, 512, 3] inb0) : FVec Ideal BOut .f32) h1)
        (broadcastTo VOut (shapeCast VLane (View.ld (Val := Elt Ideal) (e' := EltTy.f32) x1 (Rect.unit (s := BWt) ![0, 0, 0, k] ![1, 128, 512, 1] inb1) : FVec Ideal BLane .f32) h2) h3)
        (ix3 r w c)
      = tapBlk x0 x1 R W k r w c (win_row inb0 r) (win_col inb0 w) (win_lane inb1) := by
  show shapeCast VOut (View.ld (Val := Elt Ideal) (e' := EltTy.f32) x0 (Rect.unit (s := BPad) ![0, R, W, 0] ![1, 128, 512, 3] inb0) : FVec Ideal BOut .f32) h1 (ix3 r w c)
      * broadcastTo VOut (shapeCast VLane (View.ld (Val := Elt Ideal) (e' := EltTy.f32) x1 (Rect.unit (s := BWt) ![0, 0, 0, k] ![1, 128, 512, 1] inb1) : FVec Ideal BLane .f32) h2) h3
          (ix3 r w c) = _
  rw [shapeCast_1abc_abc_apply,
    broadcastTo_apply _ h3 (ix3 r w c) (ix3 r w (0 : Fin 1)) (fun a => match a with
      | ⟨0, _⟩ => by show r.val = if (128 : Nat) = 1 then 0 else r.val; rw [if_neg (by decide)]
      | ⟨1, _⟩ => by show w.val = if (512 : Nat) = 1 then 0 else w.val; rw [if_neg (by decide)]
      | ⟨2, _⟩ => by show 0 = if (1 : Nat) = 1 then 0 else c.val; rw [if_pos rfl]),
    shapeCast_1abc_abc_apply]
  unfold tapBlk
  refine congrArg₂ (· * ·) (congrArg x0 ?_) (congrArg x1 ?_)
  · funext a
    apply Fin.ext
    match a with
    | ⟨0, _⟩ => rfl
    | ⟨1, _⟩ => show R + 1 * r.val = R + r.val; omega
    | ⟨2, _⟩ => show W + 1 * w.val = W + w.val; omega
    | ⟨3, _⟩ => show 0 + 1 * c.val = c.val; omega
  · funext a
    apply Fin.ext
    match a with
    | ⟨0, _⟩ => rfl
    | ⟨1, _⟩ => show 0 + 1 * r.val = r.val; omega
    | ⟨2, _⟩ => show 0 + 1 * w.val = w.val; omega
    | ⟨3, _⟩ => show k + 1 * 0 = k; omega

/-- A block's tap is the array's tap: when the sample is sample `n` of the padded input and the weight block is rows
    128·h0 … 128·h0 + 127 of sample `n` of the weights, the window that starts 128·h0 + dh rows down reads, at row r, the
    padded input dh rows below the result row 128·h0 + r. -/
theorem tapBlk_eq (xp : FVec Ideal SPad .f32) (wt : FVec Ideal SWt .f32) (x0 : FVec Ideal BPad .f32) (x1 : FVec Ideal BWt .f32)
    (n : Fin 8) (h0 : Nat) (hh0 : h0 < 4)
    (hx0 : ∀ (R : Fin 516) (W : Fin 516) (c : Fin 3), x0 (ix4 0 R W c) = xp (ix4 n R W c))
    (hx1 : ∀ (r : Fin 128) (w : Fin 512) (k : Fin 25),
      x1 (ix4 0 r w k) = wt (ix4 n ⟨128 * h0 + r.val, by have := r.isLt; omega⟩ w k))
    (dh dw k : Nat) (r : Fin 128) (w : Fin 512) (c : Fin 3)
    (hR : 128 * h0 + dh + r.val < 516) (hW : dw + w.val < 516) (hk : k < 25) :
    tapBlk x0 x1 (128 * h0 + dh) dw k r w c hR hW hk
      = tapAt xp wt n ⟨128 * h0 + r.val, by have := r.isLt; omega⟩ w c dh dw k (by show 128 * h0 + r.val + dh < 516; omega)
          (by omega) hk := by
  unfold tapBlk tapAt
  rw [hx0, hx1]
  refine congrArg₂ (· * ·) (congrArg xp ?_) rfl
  funext a
  apply Fin.ext
  match a with
  | ⟨0, _⟩ => rfl
  | ⟨1, _⟩ => show 128 * h0 + dh + r.val = 128 * h0 + r.val + dh; omega
  | ⟨2, _⟩ => show dw + w.val = w.val + dw; omega
  | ⟨3, _⟩ => rfl

end Cert.ConvSpec

end
-- ==== Proof.ConvBlock.lean ====
/-
  What the kernel body leaves in one block of the result.

  At grid point (n, h0) the body holds padded sample n whole and rows 128·h0 … 128·h0 + 127 of sample n's weights. It
  makes one store, of the whole [1, 128, 512, 3] block, and the stored value is the 25 taps added to zero in the order
  k = 0 … 24: tap k = 5·dh + dw loads the window of the sample that starts 128·h0 + dh rows down and dw columns in, and
  lane k of the weight block. Read at row r of the block that is the local convolution at result row 128·h0 + r.
-/
import proofs.«122992_j46815143526701_1_alg».proof.Proof.Gen.KernelIdeal.Frame
import proofs.«122992_j46815143526701_1_alg».proof.Proof.ConvSpec
import Idealize.ShloMosaic.Lib.Pipeline.Value
import Idealize.ShloMosaic.Lib.ValueLayout
import Idealize.ShloMosaic.Lib.Tactic

set_option maxRecDepth 16384

noncomputable section

namespace Cert.KernelIdeal.Block

open Cert.KernelIdeal Cert.KernelIdeal.Gen Idealize.ShloMosaic Idealize.ShloMosaic.TcCoe Idealize.SL.Sem
open Idealize.ShloMosaic.Tactic Idealize.ShloMosaic.ValueIdx Cert.ConvSpec

theorem hz : (![0, 0, 0, 0] : Fin 4 → Nat) = fun _ => 0 := funext fun a => by fin_cases a <;> rfl

/-- The row a window starts at: the body computes 128·h0 + dh in 32-bit words from the grid coordinate h0 < 4 and the
    literal dh ≤ 4, and no word overflows. -/
theorem row_off (i : grid0.Coords) (d : Fin 5) :
    BitVec.toNat (Scalar.indexCast (Scalar.addi (Scalar.muli (BitVec.ofNat 32 (i 1).val) 128#32) (BitVec.ofNat 32 d.val)))
      = 128 * (i 1).val + d.val :=
  congrFun (k0_off1_eq i d) 1

theorem row_off0 (i : grid0.Coords) :
    BitVec.toNat (Scalar.indexCast (Scalar.addi (Scalar.muli (BitVec.ofNat 32 (i 1).val) 128#32) 0#32)) = 128 * (i 1).val + 0 :=
  row_off i ⟨0, by decide⟩
theorem row_off1 (i : grid0.Coords) :
    BitVec.toNat (Scalar.indexCast (Scalar.addi (Scalar.muli (BitVec.ofNat 32 (i 1).val) 128#32) 1#32)) = 128 * (i 1).val + 1 :=
  row_off i ⟨1, by decide⟩
theorem row_off2 (i : grid0.Coords) :
    BitVec.toNat (Scalar.indexCast (Scalar.addi (Scalar.muli (BitVec.ofNat 32 (i 1).val) 128#32) 2#32)) = 128 * (i 1).val + 2 :=
  row_off i ⟨2, by decide⟩
theorem row_off3 (i : grid0.Coords) :
    BitVec.toNat (Scalar.indexCast (Scalar.addi (Scalar.muli (BitVec.ofNat 32 (i 1).val) 128#32) 3#32)) = 128 * (i 1).val + 3 :=
  row_off i ⟨3, by decide⟩
theorem row_off4 (i : grid0.Coords) :
    BitVec.toNat (Scalar.indexCast (Scalar.addi (Scalar.muli (BitVec.ofNat 32 (i 1).val) 128#32) 4#32)) = 128 * (i 1).val + 4 :=
  row_off i ⟨4, by decide⟩

-- the run's pieces spell the windows' offsets unfolded while the bounds inside them still name the folded offsets: the
-- types of those proofs are compared by unfolding plain definitions
set_option backward.isDefEq.respectTransparency.types false in
/-- THE BLOCK: when the resident sample is sample `n` of the padded input `xp` and the weight block is rows
    128·h0 … 128·h0 + 127 of sample `n` of `wt`, the body's one covering store leaves, at row r of the block, the local
    convolution of `xp` with `wt` at result row 128·h0 + r. -/
theorem out_at (xp : FVec Ideal SPad .f32) (wt : FVec Ideal SWt .f32) (c : Dev nD) (i : grid0.Coords)
    (arg2 : Memref sig .tc .vmem S1x516x516x3 .f32) (harg2 : arg2.IsWhole)
    (arg3 : Memref sig .tc .vmem S1x128x512x25 .f32) (harg3 : arg3.IsWhole)
    (arg4 : Memref sig .tc .vmem S1x128x512x3 .f32) (harg4 : arg4.IsWhole)
    (x0 : Vec Ideal S1x516x516x3 .f32) (x1 : Vec Ideal S1x128x512x25 .f32) (n : Fin 8)
    (hx0 : ∀ (R : Fin 516) (W : Fin 516) (ch : Fin 3), x0 (ix4 0 R W ch) = xp (ix4 n R W ch))
    (hx1 : ∀ (r : Fin 128) (w : Fin 512) (k : Fin 25),
      x1 (ix4 0 r w k) = wt (ix4 n ⟨128 * (i 1).val + r.val, by have := r.isLt; have : (i 1).val < 4 := (i 1).isLt; omega⟩ w k))
    (u : Fin 1) (r : Fin 128) (w : Fin 512) (ch : Fin 3) :
    out0_A_2 (F := Ideal) c i arg2 harg2 arg3 harg3 arg4 harg4 x0 x1 (ix4 u r w ch)
      = convAt xp wt n ⟨128 * (i 1).val + r.val, by have := r.isLt; have : (i 1).val < 4 := (i 1).isLt; omega⟩ w ch := by
  have hi : (i 1).val < 4 := (i 1).isLt
  unfold out0_A_2
  rw [View.read_writes_eq_canon _ _ _ (cover0_A_2 c i arg2 harg2 arg3 harg3 arg4 harg4 x0 x1)]
  unfold kernelRun0_A
  dsimp only
  sl_unfold_words
  rw [View.canon_unit_zero hz]
  simp only [View.readAt_eq_ld, harg2.read_unread, harg3.read_unread]
  simp only [k0_pay1, k0_pay2, k0_pay3, k0_pay4, k0_pay5, k0_pay6, k0_pay7, k0_pay8, k0_pay9, k0_pay10, k0_pay11]
  rw [shapeCast_abc_1abc_apply]
  simp only [addf_apply, tap_vec]
  simp only [row_off0, row_off1, row_off2, row_off3, row_off4, broadcast_apply, Ideal.ofBits_def, Ideal.ofBits_zero_f32]
  simp only [tapBlk_eq xp wt x0 x1 n (i 1).val hi hx0 hx1]
  rfl

end Cert.KernelIdeal.Block

end
-- ==== Proof.ConvArray.lean ====
/-
  From blocks to the array: what the kernel's result array holds after the run.

  The grid is 8 × 4: point (n, h0) holds padded sample n whole (window 0, block index (n, 0, 0, 0)), rows
  128·h0 … 128·h0 + 127 of sample n's weights (window 1, block index (n, h0, 0, 0)) and writes back rows
  128·h0 … 128·h0 + 127 of sample n of the result (window 2, the same block index). By the block lemma the block written
  back at a point is the local convolution of the padded input with the weights, read through the block; the 32
  blocks tile the result (row h of sample n lies in the block of point (n, h / 128)); so the whole array ends at the
  convolution. The padded input is what the host operations before the call leave: the zero padding of the argument.
-/
import proofs.«122992_j46815143526701_1_alg».proof.Proof.Gen.KernelIdeal.Value
import proofs.«122992_j46815143526701_1_alg».proof.Proof.ConvBlock
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.ConvSpec
open Idealize.ShloMosaic.Pipeline (Dat)

variable (m : (ℓ : Loc nD τ sig) → Buf (Elt Ideal) ℓ) (ρ : Dev nD → PrngReg)

/-- The printed index maps, decided over the 32 grid points: the sample window follows the result's sample, the weight
    window follows the result's sample and row block, every other block index is 0, and the row block is the grid's
    second coordinate. -/
theorem idx_facts : ∀ t : Fin cfg0.N,
      win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) < 8 ∧ win0_2.index t (1 : Fin 4) = (grid0.coords t 1).val :=
  (by decide +kernel : ∀ t : Fin grid0.N, _)

/-- Every (sample, row block) is SOME point's. -/
theorem idx_onto : ∀ (q0 : Fin 8) (q1 : Fin 4), ∃ t : Fin cfg0.N, win0_2.index t = ![q0.val, q1.val, 0, 0] :=
  (by decide +kernel : ∀ (q0 : Fin 8) (q1 : Fin 4), ∃ t : Fin grid0.N, win0_2.index t = ![q0.val, q1.val, 0, 0])

/-- The resident sample at point `t` is sample `n` of the padded input as the region finds it. -/
theorem sample_at (c : Dev nD) (t : Fin cfg0.N) (n : Fin 8) (hn : n.val = win0_2.index t (0 : Fin 4))
    (R W : Fin 516) (ch : Fin 3) : iblk m c 0 t (ix4 0 R W ch) = V m c main_v0 (ix4 n R W ch) := by
  obtain ⟨e0, e1, e2, e3, -⟩ := idx_facts t
  show V m c main_v0 (((cfg0.win 0).blk t).view.emb (ix4 0 R W ch)) = V m c main_v0 (ix4 n R W ch)
  refine congrArg (V m c main_v0) ?_
  funext a
  apply Fin.ext
  match a with
  | ⟨0, _⟩ => show win0_0.index t (0 : Fin 4) * 1 + 1 * 0 = n.val; omega
  | ⟨1, _⟩ => show win0_0.index t (1 : Fin 4) * 516 + 1 * R.val = R.val; omega
  | ⟨2, _⟩ => show win0_0.index t (2 : Fin 4) * 516 + 1 * W.val = W.val; omega
  | ⟨3, _⟩ => show win0_0.index t (3 : Fin 4) * 3 + 1 * ch.val = ch.val; omega

/-- The weight block at point `t` is rows 128·h0 … 128·h0 + 127 of sample `n` of the weights. -/
theorem weights_at (c : Dev nD) (t : Fin cfg0.N) (n : Fin 8) (hn : n.val = win0_2.index t (0 : Fin 4))
    (r : Fin 128) (w : Fin 512) (k : Fin 25) :
    iblk m c 1 t (ix4 0 r w k)
      = V m c main_arg1 (ix4 n ⟨128 * (grid0.coords t 1).val + r.val,
          by have := r.isLt; have : (grid0.coords t 1).val < 4 := (grid0.coords t 1).isLt; omega⟩ w k) := by
  obtain ⟨-, -, -, -, f0, f1, f2, f3, -, -, -, hh⟩ := idx_facts t
  show V m c main_arg1 (((cfg0.win 1).blk t).view.emb (ix4 0 r w k)) = _
  refine congrArg (V m c main_arg1) ?_
  funext a
  apply Fin.ext
  match a with
  | ⟨0, _⟩ => show win0_1.index t (0 : Fin 4) * 1 + 1 * 0 = n.val; omega
  | ⟨1, _⟩ => show win0_1.index t (1 : Fin 4) * 128 + 1 * r.val = 128 * (grid0.coords t 1).val + r.val; omega
  | ⟨2, _⟩ => show win0_1.index t (2 : Fin 4) * 512 + 1 * w.val = w.val; omega
  | ⟨3, _⟩ => show win0_1.index t (3 : Fin 4) * 25 + 1 * k.val = k.val; omega

/-- WHAT POINT `t` WRITES BACK is block `t` of the convolution of the padded input with the weights, as the region finds
    them. -/
theorem flushed_eq (c : Dev nD) (t : Fin cfg0.N) :
    (dats m 0 c).flushed 2 t
      = ((cfg0.win 2).blk t).view.read (Elt Ideal) (conv (V m c main_v0) (V m c main_arg1)) := by
  rw [Cert.KernelIdeal.Value.flushed2_A]
  obtain ⟨-, -, -, -, -, -, -, -, g2, g3, hn, hh⟩ := idx_facts t
  funext y
  obtain ⟨u, r, w, ch, rfl⟩ : ∃ (u : Fin 1) (r : Fin 128) (w : Fin 512) (ch : Fin 3), y = ix4 u r w ch :=
    ⟨y 0, y 1, y 2, y 3, eq_ix4 y⟩
  show out0_A_2 c (grid0.coords t) (ms0_0 t) (hs0_0 t) (ms0_1 t) (hs0_1 t) (ms0_2 t) (hs0_2 t) (iblk m c 0 t) (iblk m c 1 t)
      (ix4 u r w ch) = conv (V m c main_v0) (V m c main_arg1) (((cfg0.win 2).blk t).view.emb (ix4 u r w ch))
  refine (Cert.KernelIdeal.Block.out_at (V m c main_v0) (V m c main_arg1) c (grid0.coords t) (ms0_0 t) (hs0_0 t) (ms0_1 t)
    (hs0_1 t) (ms0_2 t) (hs0_2 t) (iblk m c 0 t) (iblk m c 1 t) ⟨win0_2.index t (0 : Fin 4), hn⟩
    (fun R W ch' => sample_at m c t ⟨win0_2.index t (0 : Fin 4), hn⟩ rfl R W ch')
    (fun r' w' k => weights_at m c t ⟨win0_2.index t (0 : Fin 4), hn⟩ rfl r' w' k) u r w ch).trans ?_
  have hu : u.val = 0 := by omega
  refine (conv_of_coords (V m c main_v0) (V m c main_arg1) _ _ _ _ _ ?_ ?_ ?_ ?_).symm
  · show win0_2.index t (0 : Fin 4) * 1 + 1 * u.val = win0_2.index t (0 : Fin 4); omega
  · show win0_2.index t (1 : Fin 4) * 128 + 1 * r.val = 128 * (grid0.coords t 1).val + r.val; omega
  · show win0_2.index t (2 : Fin 4) * 512 + 1 * w.val = w.val; omega
  · show win0_2.index t (3 : Fin 4) * 3 + 1 * ch.val = ch.val; omega

/-- An index of the result is in point `t`'s block iff each coordinate is in the block's range on its axis. -/
theorem mem_blk (t : Fin cfg0.N) (i : S8x512x512x3.Idx) :
    i ∈ ((cfg0.win 2).blk t).view.set ↔ ∀ a : Fin 4, win0_2.index t a * S1x128x512x3.size a ≤ (i a).val
      ∧ (i a).val < win0_2.index t a * S1x128x512x3.size a + S1x128x512x3.size a := by
  show i ∈ ((View.whole main_v1).slice (win0_2.rect t)).set ↔ _
  rw [View.set_slice_whole, Rect.mem_set_unit]
  exact Iff.rfl

/-- THE ARRAY after the run: the 32 blocks tile it, so it is the convolution everywhere. -/
theorem final (c : Dev nD) : (dats m 0 c).arrAt 2 cfg0.N = conv (V m c main_v0) (V m c main_arg1) :=
  (dats m 0 c).arrAt_eq_of_cover 2 (conv (V m c main_v0) (V m c main_arg1)) (fun t _ => flushed_eq m c t) fun i => by
    have h0 : (i 0).val < 8 := (i 0).isLt
    have h1 : (i 1).val < 512 := (i 1).isLt
    have h2 : (i 2).val < 512 := (i 2).isLt
    have h3 : (i 3).val < 3 := (i 3).isLt
    obtain ⟨t, ht⟩ := idx_onto ⟨(i 0).val, h0⟩ ⟨(i 1).val / 128, by omega⟩
    have q0 : win0_2.index t (0 : Fin 4) = (i 0).val := congrFun ht 0
    have q1 : win0_2.index t (1 : Fin 4) = (i 1).val / 128 := congrFun ht 1
    have q2 : win0_2.index t (2 : Fin 4) = 0 := congrFun ht 2
    have q3 : win0_2.index t (3 : Fin 4) = 0 := congrFun ht 3
    refine ⟨t, flush0_2 t, ?_⟩
    rw [mem_blk]
    intro a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 128 ≤ (i 1).val ∧ (i 1).val < win0_2.index t (1 : Fin 4) * 128 + 128; omega
    | ⟨2, _⟩ => show win0_2.index t (2 : Fin 4) * 512 ≤ (i 2).val ∧ (i 2).val < win0_2.index t (2 : Fin 4) * 512 + 512; omega
    | ⟨3, _⟩ => show win0_2.index t (3 : Fin 4) * 3 ≤ (i 3).val ∧ (i 3).val < win0_2.index t (3 : Fin 4) * 3 + 3; omega

/-- The padded input the region finds is the zero padding of the argument: the three host operations before the call
    (the integer 0, its conversion, the pad). -/
theorem padded_eq (c : Dev nD) :
    (V m c main_v0 : FVec Ideal SPad .f32)
      = zeroPad (m ((c : Thread nD τ).loc main_arg0)) pads_S8x512x512x3_S8x516x516x3_000_220_220_000 h_S_ := by
  dsimp only [V]
  simp only [hostOps0, hostOps0_1, List.flatten_cons, List.flatten_nil, List.append_nil, List.cons_append, List.nil_append]
  after_results
  rfl

/-- THE RUN, READ: the result array ends at the local convolution of the zero-padded first argument with the second,
    the arguments unchanged. -/
theorem run : θ_run defs (onTc (τ := τ) (main (F := Ideal))) ⟨m, fun _ => 0, ρ⟩ fun r => ∀ c : Dev nD,
      r.2.mem ((c : Thread nD τ).loc main_v1)
        = conv (zeroPad (m ((c : Thread nD τ).loc main_arg0)) pads_S8x512x512x3_S8x516x516x3_000_220_220_000 h_S_)
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [padded_eq m c, V_main_arg1 m c])), (h c).2⟩)
    (Cert.KernelIdeal.Value.run_blocks m ρ)

end Cert.KernelIdeal.ArrayValue

end
-- ==== Proof.LibTapGroup.lean ====
/-
  Cert.TapGroup — a host program that accumulates products, one GROUP of five operations per term.

  A group computes, on typed references of a straight-line host program,

      a = f x,   b = g w,   b' = h b,   p = mul a b',   acc' = add acc p,

  where `x` and `w` are two arrays the whole program only reads, `acc` is the running value the group before left and
  `a`, `b`, `b'`, `p`, `acc'` are fresh buffers. `tapOps_after` reads the fold of one group from ANY contents `W`: `x` and
  `w` keep their contents and `acc'` holds `add acc (mul (f x) (h (g w)))`. `Holds` is the invariant a chain of groups
  carries — the contents of `x`, of `w` and of the current accumulator, and that a list of other buffers (the program's
  arguments) is untouched — and `Holds.step` moves it over one group, so
  that a program of N groups is read by N applications, each against an abstract valuation: no step ever sees the
  operations before it. General in the types and in the five functions; imports only Idealize's straight-line host
  run (Lib/StableHlo/Run.lean) and the fold's append law (Lib/Pipeline/Frame.lean).
-/
import Idealize.ShloMosaic.Lib.StableHlo.Run
import Idealize.ShloMosaic.Lib.Pipeline.Frame

noncomputable section

namespace Cert.TapGroup

open Idealize.ShloMosaic Idealize.ShloMosaic.TcCoe Idealize.ShloMosaic.StableHlo

variable {τ : Topo} {sig : RefSig} {Val : EltTy → Type}
variable {TX TW TL TO : BufTy}

/-- One group: a = f x, b = g w, b' = h b, p = mul a b', acc' = add acc p. -/
def tapOps (x : TRef sig TX) (w : TRef sig TW) (acc a b' p acc' : TRef sig TO) (b : TRef sig TL)
    (f : TX.Contents Val → TO.Contents Val) (g : TW.Contents Val → TL.Contents Val) (h : TL.Contents Val → TO.Contents Val)
    (mul add : TO.Contents Val → TO.Contents Val → TO.Contents Val) : List (HloOp τ sig Val) :=
  [TRef.unary x a f, TRef.unary w b g, TRef.unary b b' h, TRef.binary a b' p mul, TRef.binary acc p acc' add]

/-- Carrying a value to a buffer's type and back is the identity. -/
theorem ofBuf_toBuf {T : BufTy} (y : TRef sig T) (v : T.Contents Val) : y.ofBuf (y.toBuf v) = v := by
  obtain ⟨r, rfl, _, _⟩ := y; rfl

/-- What the group needs of its references: the three buffers it only reads (`x`, `w`, `acc`) are none of the five
    it writes, and `a` is written before `b` and `b'` are and must survive them. -/
def Fresh (x : TRef sig TX) (w : TRef sig TW) (acc a b' p acc' : TRef sig TO) (b : TRef sig TL) : Prop :=
  (∀ r ∈ [x.ref, w.ref, acc.ref], ∀ y ∈ [a.ref, b.ref, b'.ref, p.ref, acc'.ref], r ≠ y) ∧ a.ref ≠ b.ref ∧ a.ref ≠ b'.ref

instance (x : TRef sig TX) (w : TRef sig TW) (acc a b' p acc' : TRef sig TO) (b : TRef sig TL) :
    Decidable (Fresh x w acc a b' p acc' b) := by unfold Fresh; infer_instance

/-- THE GROUP, from any contents `W`: `x` and `w` are as they were, and `acc'` holds `add acc (mul (f x) (h (g w)))`. -/
theorem tapOps_after (W : Valuation τ sig Val) (x : TRef sig TX) (w : TRef sig TW) (acc a b' p acc' : TRef sig TO)
    (b : TRef sig TL) (f : TX.Contents Val → TO.Contents Val) (g : TW.Contents Val → TL.Contents Val)
    (h : TL.Contents Val → TO.Contents Val) (mul add : TO.Contents Val → TO.Contents Val → TO.Contents Val)
    (hd : Fresh x w acc a b' p acc' b) :
    after (tapOps x w acc a b' p acc' b f g h mul add) W x.ref = W x.ref
    ∧ after (tapOps x w acc a b' p acc' b f g h mul add) W w.ref = W w.ref
    ∧ acc'.ofBuf (after (tapOps x w acc a b' p acc' b f g h mul add) W acc'.ref)
        = add (acc.ofBuf (W acc.ref)) (mul (f (x.ofBuf (W x.ref))) (h (g (w.ofBuf (W w.ref))))) := by
  obtain ⟨hne, hab, hab'⟩ := hd
  have xa : x.ref ≠ a.ref := hne _ (by simp) _ (by simp)
  have xb : x.ref ≠ b.ref := hne _ (by simp) _ (by simp)
  have xb' : x.ref ≠ b'.ref := hne _ (by simp) _ (by simp)
  have xp : x.ref ≠ p.ref := hne _ (by simp) _ (by simp)
  have xc : x.ref ≠ acc'.ref := hne _ (by simp) _ (by simp)
  have wa : w.ref ≠ a.ref := hne _ (by simp) _ (by simp)
  have wb : w.ref ≠ b.ref := hne _ (by simp) _ (by simp)
  have wb' : w.ref ≠ b'.ref := hne _ (by simp) _ (by simp)
  have wp : w.ref ≠ p.ref := hne _ (by simp) _ (by simp)
  have wc : w.ref ≠ acc'.ref := hne _ (by simp) _ (by simp)
  have ca : acc.ref ≠ a.ref := hne _ (by simp) _ (by simp)
  have cb : acc.ref ≠ b.ref := hne _ (by simp) _ (by simp)
  have cb' : acc.ref ≠ b'.ref := hne _ (by simp) _ (by simp)
  have cp : acc.ref ≠ p.ref := hne _ (by simp) _ (by simp)
  unfold tapOps
  simp only [after_cons, after_nil]
  refine ⟨?_, ?_, ?_⟩
  · rw [binary_result_ne (h := xc), binary_result_ne (h := xp), unary_result_ne (h := xb'),
      unary_result_ne (h := xb), unary_result_ne (h := xa)]
  · rw [binary_result_ne (h := wc), binary_result_ne (h := wp), unary_result_ne (h := wb'),
      unary_result_ne (h := wb), unary_result_ne (h := wa)]
  · rw [binary_result, ofBuf_toBuf,
      binary_result_ne (h := cp), unary_result_ne (h := cb'), unary_result_ne (h := cb), unary_result_ne (h := ca),
      binary_result, ofBuf_toBuf,
      unary_result_ne (h := hab'), unary_result_ne (h := hab), unary_result, ofBuf_toBuf,
      unary_result, ofBuf_toBuf, unary_result, ofBuf_toBuf, unary_result_ne (h := wa)]

/-- A buffer the group does not write keeps its contents. -/
theorem tapOps_keeps (W : Valuation τ sig Val) (x : TRef sig TX) (w : TRef sig TW) (acc a b' p acc' : TRef sig TO)
    (b : TRef sig TL) (f : TX.Contents Val → TO.Contents Val) (g : TW.Contents Val → TL.Contents Val)
    (h : TL.Contents Val → TO.Contents Val) (mul add : TO.Contents Val → TO.Contents Val → TO.Contents Val)
    (r : Ref sig .tc) (hr : ∀ y ∈ [a.ref, b.ref, b'.ref, p.ref, acc'.ref], r ≠ y) :
    after (tapOps x w acc a b' p acc' b f g h mul add) W r = W r := by
  have ra : r ≠ a.ref := hr _ (by simp)
  have rb : r ≠ b.ref := hr _ (by simp)
  have rb' : r ≠ b'.ref := hr _ (by simp)
  have rp : r ≠ p.ref := hr _ (by simp)
  have rc : r ≠ acc'.ref := hr _ (by simp)
  unfold tapOps
  simp only [after_cons, after_nil]
  rw [binary_result_ne (h := rc), binary_result_ne (h := rp), unary_result_ne (h := rb'), unary_result_ne (h := rb),
    unary_result_ne (h := ra)]

/-- What a chain of groups carries: `x` holds `X`, `w` holds `Wt`, the current accumulator `acc` holds `P`. -/
structure Holds (V : Valuation τ sig Val) (x : TRef sig TX) (w : TRef sig TW) (acc : TRef sig TO)
    (X : TX.Contents Val) (Wt : TW.Contents Val) (P : TO.Contents Val) (K : List (Ref sig .tc)) (V₀ : Valuation τ sig Val) :
    Prop where
  x_eq : x.ofBuf (V x.ref) = X
  w_eq : w.ofBuf (V w.ref) = Wt
  acc_eq : acc.ofBuf (V acc.ref) = P
  /-- and the buffers of the list `K` hold what they held in `V₀` (the program's arguments, at launch). -/
  keep : ∀ r ∈ K, V r = V₀ r

/-- One group on: the accumulator moves to `acc'` and gains the group's term. -/
theorem Holds.step {V : Valuation τ sig Val} {x : TRef sig TX} {w : TRef sig TW} {acc : TRef sig TO}
    {X : TX.Contents Val} {Wt : TW.Contents Val} {P : TO.Contents Val} {K : List (Ref sig .tc)} {V₀ : Valuation τ sig Val}
    (H : Holds V x w acc X Wt P K V₀)
    (a b' p acc' : TRef sig TO) (b : TRef sig TL) (f : TX.Contents Val → TO.Contents Val)
    (g : TW.Contents Val → TL.Contents Val) (h : TL.Contents Val → TO.Contents Val)
    (mul add : TO.Contents Val → TO.Contents Val → TO.Contents Val) (hd : Fresh x w acc a b' p acc' b)
    (hK : ∀ r ∈ K, ∀ y ∈ [a.ref, b.ref, b'.ref, p.ref, acc'.ref], r ≠ y) :
    Holds (after (tapOps x w acc a b' p acc' b f g h mul add) V) x w acc' X Wt (add P (mul (f X) (h (g Wt)))) K V₀ := by
  obtain ⟨e1, e2, e3⟩ := tapOps_after V x w acc a b' p acc' b f g h mul add hd
  exact ⟨by rw [e1]; exact H.x_eq, by rw [e2]; exact H.w_eq, by rw [e3, H.x_eq, H.w_eq, H.acc_eq],
    fun r hr => (tapOps_keeps V x w acc a b' p acc' b f g h mul add r (hK r hr)).trans (H.keep r hr)⟩

/-- Every operation of a group touches TensorCore references only. -/
theorem tapOps_sub (x : TRef sig TX) (w : TRef sig TW) (acc a b' p acc' : TRef sig TO) (b : TRef sig TL)
    (f : TX.Contents Val → TO.Contents Val) (g : TW.Contents Val → TL.Contents Val) (h : TL.Contents Val → TO.Contents Val)
    (mul add : TO.Contents Val → TO.Contents Val → TO.Contents Val) :
    (tapOps (τ := τ) x w acc a b' p acc' b f g h mul add).Forall fun op => op.bufs ⊆ tcRefs τ sig :=
  ⟨unary_bufs_sub .., unary_bufs_sub .., unary_bufs_sub .., binary_bufs_sub .., binary_bufs_sub ..⟩

end Cert.TapGroup

end
-- ==== Proof.RefRun.lean ====
/-
  The reference's run, read group by group.

  The reference's @main is a straight line of 130 host operations: five that prepare — the integer 0, its conversion and
  the zero padding of the first argument to [8, 516, 516, 3], the float 0 and its broadcast to the result's shape — and
  then, for each tap k = 0 … 24 in turn, a group of five: the slice of the padded input at offset (k / 5, k % 5), lane k
  of the weights, its broadcast over the three channels, their product, and the sum of the running value with it. The
  program is that list (`main_eq`, checked by the kernel's unfolding), every execution of it ends with each buffer at
  the fold of the operations (the library's straight-line run), and the fold is read one group at a time against an
  abstract valuation (`Cert.TapGroup.Holds`): the padded input and the weights stay, the running value gains one tap.
  After the 25th group the result is the 25 taps added to zero in order: the local convolution, index by index.
-/
import proofs.«122992_j46815143526701_1_alg».proof.Proof.Gen.ReferenceIdeal
import proofs.«122992_j46815143526701_1_alg».proof.Proof.ConvSpec
import proofs.«122992_j46815143526701_1_alg».proof.Proof.LibTapGroup
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem
open Idealize.ShloMosaic.StableHlo Idealize.ShloMosaic.ValueIdx Cert.ConvSpec Cert.TapGroup

variable {F : FTy → Type} [FloatOps F]

/-- The five operations before the first tap. -/
abbrev pre : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x512x512x3, .f32⟩) main_arg0) (TRef.of (T := ⟨S_, .f32⟩) main_call0_v0)
      (TRef.of (T := ⟨S8x516x516x3, .f32⟩) main_v0)
      (fun x v => pad S8x516x516x3 ![0, 2, 2, 0] ![0, 2, 2, 0] ![0, 0, 0, 0] x v pads_S8x512x512x3_S8x516x516x3_000_220_220_000 h_S_),
    nullary main_cst (constant S_ .f32 0x00000000#32),
    unary main_cst main_v1 (broadcastInDim S8x512x512x3 ![] bcast_S_S8x512x512x3 :
      (⟨S_, .f32⟩ : BufTy).Contents (Elt F) → (⟨S8x512x512x3, .f32⟩ : BufTy).Contents (Elt F)) ]

/-- The group of tap `k` at offset (dh, dw): from the running value in `acc` to the next in `acc'`. -/
abbrev tapG (acc a b' p acc' : TRef sig ⟨S8x512x512x3, .f32⟩) (b : TRef sig ⟨S8x512x512x1, .f32⟩) (dh dw k : Nat)
    (hs : S8x516x516x3.Slices ![0, dh, dw, 0] S8x512x512x3) (hs' : S8x512x512x25.Slices ![0, 0, 0, k] S8x512x512x1) :
    List (HloOp τ sig (Elt F)) :=
  tapOps (TRef.of (T := ⟨S8x516x516x3, .f32⟩) main_v0) (TRef.of (T := ⟨S8x512x512x25, .f32⟩) main_arg1) acc a b' p acc' b
    (extractStridedSlice S8x512x512x3 ![0, dh, dw, 0] · hs) (extractStridedSlice S8x512x512x1 ![0, 0, 0, k] · hs')
    (broadcastInDim S8x512x512x3 ![0, 1, 2, 3] bcast_S8x512x512x1_S8x512x512x3_0_1_2_3) mulf addf

/-- @main's 130 operations: the five, then the 25 groups. -/
abbrev groups : List (List (HloOp τ sig (Elt F))) :=
  [ pre,
    tapG (.of main_v1) (.of main_v2) (.of main_v4) (.of main_v5) (.of main_v6) (.of main_v3) 0 0 0
      slices_S8x516x516x3_S8x512x512x3_0_0_0_0 slices_S8x512x512x25_S8x512x512x1_0_0_0_0,
    tapG (.of main_v6) (.of main_v7) (.of main_v9) (.of main_v10) (.of main_v11) (.of main_v8) 0 1 1
      slices_S8x516x516x3_S8x512x512x3_0_0_1_0 slices_S8x512x512x25_S8x512x512x1_0_0_0_1,
    tapG (.of main_v11) (.of main_v12) (.of main_v14) (.of main_v15) (.of main_v16) (.of main_v13) 0 2 2
      slices_S8x516x516x3_S8x512x512x3_0_0_2_0 slices_S8x512x512x25_S8x512x512x1_0_0_0_2,
    tapG (.of main_v16) (.of main_v17) (.of main_v19) (.of main_v20) (.of main_v21) (.of main_v18) 0 3 3
      slices_S8x516x516x3_S8x512x512x3_0_0_3_0 slices_S8x512x512x25_S8x512x512x1_0_0_0_3,
    tapG (.of main_v21) (.of main_v22) (.of main_v24) (.of main_v25) (.of main_v26) (.of main_v23) 0 4 4
      slices_S8x516x516x3_S8x512x512x3_0_0_4_0 slices_S8x512x512x25_S8x512x512x1_0_0_0_4,
    tapG (.of main_v26) (.of main_v27) (.of main_v29) (.of main_v30) (.of main_v31) (.of main_v28) 1 0 5
      slices_S8x516x516x3_S8x512x512x3_0_1_0_0 slices_S8x512x512x25_S8x512x512x1_0_0_0_5,
    tapG (.of main_v31) (.of main_v32) (.of main_v34) (.of main_v35) (.of main_v36) (.of main_v33) 1 1 6
      slices_S8x516x516x3_S8x512x512x3_0_1_1_0 slices_S8x512x512x25_S8x512x512x1_0_0_0_6,
    tapG (.of main_v36) (.of main_v37) (.of main_v39) (.of main_v40) (.of main_v41) (.of main_v38) 1 2 7
      slices_S8x516x516x3_S8x512x512x3_0_1_2_0 slices_S8x512x512x25_S8x512x512x1_0_0_0_7,
    tapG (.of main_v41) (.of main_v42) (.of main_v44) (.of main_v45) (.of main_v46) (.of main_v43) 1 3 8
      slices_S8x516x516x3_S8x512x512x3_0_1_3_0 slices_S8x512x512x25_S8x512x512x1_0_0_0_8,
    tapG (.of main_v46) (.of main_v47) (.of main_v49) (.of main_v50) (.of main_v51) (.of main_v48) 1 4 9
      slices_S8x516x516x3_S8x512x512x3_0_1_4_0 slices_S8x512x512x25_S8x512x512x1_0_0_0_9,
    tapG (.of main_v51) (.of main_v52) (.of main_v54) (.of main_v55) (.of main_v56) (.of main_v53) 2 0 10
      slices_S8x516x516x3_S8x512x512x3_0_2_0_0 slices_S8x512x512x25_S8x512x512x1_0_0_0_10,
    tapG (.of main_v56) (.of main_v57) (.of main_v59) (.of main_v60) (.of main_v61) (.of main_v58) 2 1 11
      slices_S8x516x516x3_S8x512x512x3_0_2_1_0 slices_S8x512x512x25_S8x512x512x1_0_0_0_11,
    tapG (.of main_v61) (.of main_v62) (.of main_v64) (.of main_v65) (.of main_v66) (.of main_v63) 2 2 12
      slices_S8x516x516x3_S8x512x512x3_0_2_2_0 slices_S8x512x512x25_S8x512x512x1_0_0_0_12,
    tapG (.of main_v66) (.of main_v67) (.of main_v69) (.of main_v70) (.of main_v71) (.of main_v68) 2 3 13
      slices_S8x516x516x3_S8x512x512x3_0_2_3_0 slices_S8x512x512x25_S8x512x512x1_0_0_0_13,
    tapG (.of main_v71) (.of main_v72) (.of main_v74) (.of main_v75) (.of main_v76) (.of main_v73) 2 4 14
      slices_S8x516x516x3_S8x512x512x3_0_2_4_0 slices_S8x512x512x25_S8x512x512x1_0_0_0_14,
    tapG (.of main_v76) (.of main_v77) (.of main_v79) (.of main_v80) (.of main_v81) (.of main_v78) 3 0 15
      slices_S8x516x516x3_S8x512x512x3_0_3_0_0 slices_S8x512x512x25_S8x512x512x1_0_0_0_15,
    tapG (.of main_v81) (.of main_v82) (.of main_v84) (.of main_v85) (.of main_v86) (.of main_v83) 3 1 16
      slices_S8x516x516x3_S8x512x512x3_0_3_1_0 slices_S8x512x512x25_S8x512x512x1_0_0_0_16,
    tapG (.of main_v86) (.of main_v87) (.of main_v89) (.of main_v90) (.of main_v91) (.of main_v88) 3 2 17
      slices_S8x516x516x3_S8x512x512x3_0_3_2_0 slices_S8x512x512x25_S8x512x512x1_0_0_0_17,
    tapG (.of main_v91) (.of main_v92) (.of main_v94) (.of main_v95) (.of main_v96) (.of main_v93) 3 3 18
      slices_S8x516x516x3_S8x512x512x3_0_3_3_0 slices_S8x512x512x25_S8x512x512x1_0_0_0_18,
    tapG (.of main_v96) (.of main_v97) (.of main_v99) (.of main_v100) (.of main_v101) (.of main_v98) 3 4 19
      slices_S8x516x516x3_S8x512x512x3_0_3_4_0 slices_S8x512x512x25_S8x512x512x1_0_0_0_19,
    tapG (.of main_v101) (.of main_v102) (.of main_v104) (.of main_v105) (.of main_v106) (.of main_v103) 4 0 20
      slices_S8x516x516x3_S8x512x512x3_0_4_0_0 slices_S8x512x512x25_S8x512x512x1_0_0_0_20,
    tapG (.of main_v106) (.of main_v107) (.of main_v109) (.of main_v110) (.of main_v111) (.of main_v108) 4 1 21
      slices_S8x516x516x3_S8x512x512x3_0_4_1_0 slices_S8x512x512x25_S8x512x512x1_0_0_0_21,
    tapG (.of main_v111) (.of main_v112) (.of main_v114) (.of main_v115) (.of main_v116) (.of main_v113) 4 2 22
      slices_S8x516x516x3_S8x512x512x3_0_4_2_0 slices_S8x512x512x25_S8x512x512x1_0_0_0_22,
    tapG (.of main_v116) (.of main_v117) (.of main_v119) (.of main_v120) (.of main_v121) (.of main_v118) 4 3 23
      slices_S8x516x516x3_S8x512x512x3_0_4_3_0 slices_S8x512x512x25_S8x512x512x1_0_0_0_23,
    tapG (.of main_v121) (.of main_v122) (.of main_v124) (.of main_v125) (.of main_v126) (.of main_v123) 4 4 24
      slices_S8x516x516x3_S8x512x512x3_0_4_4_0 slices_S8x512x512x25_S8x512x512x1_0_0_0_24 ]

abbrev ops : List (HloOp τ sig (Elt F)) := groups.flatten

/-- @main IS that list, run in order. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only, -/
theorem ops_sub : (ops : List (HloOp τ sig (Elt F))).Forall fun op => op.bufs ⊆ tcRefs τ sig := by
  refine List.forall_iff_forall_mem.mpr fun op hop => ?_
  obtain ⟨l, hl, hop⟩ := List.mem_flatten.mp hop
  have hall : (groups (F := F)).Forall fun l => l.Forall fun op => op.bufs ⊆ tcRefs τ sig :=
    ⟨⟨nullary_bufs_sub .., unary_bufs_sub .., binary_bufs_sub .., nullary_bufs_sub .., unary_bufs_sub ..⟩,
      tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..,       tapOps_sub ..⟩
  exact List.forall_iff_forall_mem.mp (List.forall_iff_forall_mem.mp hall l hl) op hop

/-- and determines what it writes (none allocates). -/
theorem ops_fresh : ∀ op ∈ (ops : List (HloOp τ sig (Elt F))), op.fresh = ∅ := by
  intro op hop
  obtain ⟨l, hl, hop⟩ := List.mem_flatten.mp hop
  have hall : (groups (F := F)).Forall fun l => l.Forall fun op => op.fresh = ∅ := by
    simp only [List.Forall, tapOps]; repeat' constructor
  exact List.forall_iff_forall_mem.mp (List.forall_iff_forall_mem.mp hall l hl) op hop

/-! ## The fold, group by group -/

variable (V : Valuation τ sig (Elt F))

/-- After the five: the padded input, the weights and the zero array are in place, the arguments as launched. (The padded
    input and the weights are named `X` and `Wt`, so that the groups after are read over two plain arrays.) -/
theorem holds_pre (X : (⟨S8x516x516x3, .f32⟩ : BufTy).Contents (Elt F)) (Wt : (⟨S8x512x512x25, .f32⟩ : BufTy).Contents (Elt F))
    (hX : pad S8x516x516x3 ![0, 2, 2, 0] ![0, 2, 2, 0] ![0, 0, 0, 0] (V main_arg0) (sitofp (F := F) .f32 (constantI S_ 32 0#32))
      pads_S8x512x512x3_S8x516x516x3_000_220_220_000 h_S_ = X)
    (hWt : V main_arg1 = Wt) :
    Holds (after pre V) (TRef.of (T := ⟨S8x516x516x3, .f32⟩) main_v0) (TRef.of (T := ⟨S8x512x512x25, .f32⟩) main_arg1)
    (TRef.of (T := ⟨S8x512x512x3, .f32⟩) main_v1) X Wt
    (broadcastInDim S8x512x512x3 ![] bcast_S_S8x512x512x3 (constant (F := F) S_ .f32 0x00000000#32))
    [main_arg0, main_arg1] V where
  x_eq := by show after pre V main_v0 = _; after_results; exact hX
  w_eq := by show after pre V main_arg1 = _; after_results; exact hWt
  acc_eq := by show after pre V main_v1 = _; after_results <;> rfl
  keep := by
    intro r hr
    simp only [List.mem_cons, List.not_mem_nil, or_false] at hr
    rcases hr with rfl | rfl
    · after_results <;> rfl
    · after_results <;> rfl

/-- One group on. -/
theorem tapG_step {W : Valuation τ sig (Elt F)} {acc : TRef sig ⟨S8x512x512x3, .f32⟩}
    {X : (⟨S8x516x516x3, .f32⟩ : BufTy).Contents (Elt F)} {Wt : (⟨S8x512x512x25, .f32⟩ : BufTy).Contents (Elt F)}
    {P : (⟨S8x512x512x3, .f32⟩ : BufTy).Contents (Elt F)} {K : List (Ref sig .tc)} {V₀ : Valuation τ sig (Elt F)}
    (H : Holds W (TRef.of (T := ⟨S8x516x516x3, .f32⟩) main_v0) (TRef.of (T := ⟨S8x512x512x25, .f32⟩) main_arg1) acc X Wt P K V₀)
    (a b' p acc' : TRef sig ⟨S8x512x512x3, .f32⟩) (b : TRef sig ⟨S8x512x512x1, .f32⟩) (dh dw k : Nat)
    (hs : S8x516x516x3.Slices ![0, dh, dw, 0] S8x512x512x3) (hs' : S8x512x512x25.Slices ![0, 0, 0, k] S8x512x512x1)
    (hd : Fresh (TRef.of (T := ⟨S8x516x516x3, .f32⟩) main_v0) (TRef.of (T := ⟨S8x512x512x25, .f32⟩) main_arg1) acc a b' p acc' b)
    (hK : ∀ r ∈ K, ∀ y ∈ [a.ref, b.ref, b'.ref, p.ref, acc'.ref], r ≠ y) :
    Holds (after (tapG acc a b' p acc' b dh dw k hs hs') W) (TRef.of (T := ⟨S8x516x516x3, .f32⟩) main_v0)
      (TRef.of (T := ⟨S8x512x512x25, .f32⟩) main_arg1) acc' X Wt
      (addf P (mulf (extractStridedSlice S8x512x512x3 ![0, dh, dw, 0] X hs)
        (broadcastInDim S8x512x512x3 ![0, 1, 2, 3] bcast_S8x512x512x1_S8x512x512x3_0_1_2_3
          (extractStridedSlice S8x512x512x1 ![0, 0, 0, k] Wt hs')))) K V₀ :=
  H.step a b' p acc' b _ _ _ mulf addf hd hK

end Cert.ReferenceIdeal.RefRun

end
-- ==== Proof.RefValue.lean ====
/-
  What the reference computes: its 130 operations folded group by group (RefRun) leave, in the result buffer, the 25 taps
  added to zero in order — the local convolution of the zero-padded first argument with the second, index by index — and
  leave the arguments as launched; so every execution of the reference ends there.
-/
import proofs.«122992_j46815143526701_1_alg».proof.Proof.RefRun

noncomputable section

namespace Cert.ReferenceIdeal.RefRun

open Cert.ReferenceIdeal Cert.ReferenceIdeal.Gen Idealize.ShloMosaic Idealize.ShloMosaic.TcCoe Idealize.SL.Sem
open Idealize.ShloMosaic.StableHlo Idealize.ShloMosaic.ValueIdx Cert.ConvSpec Cert.TapGroup

/-- One group on, WITH ITS VALUE: if the running value `P` reads `S n h w c` at every index, the next reads
    `S n h w c` plus tap `k` of the padded input `X` and the weights `Wt` there (`tap_host`). -/
theorem tapG_value {W : Valuation τ sig (Elt Ideal)} {acc : TRef sig ⟨S8x512x512x3, .f32⟩}
    {X : (⟨S8x516x516x3, .f32⟩ : BufTy).Contents (Elt Ideal)} {Wt : (⟨S8x512x512x25, .f32⟩ : BufTy).Contents (Elt Ideal)}
    {P : (⟨S8x512x512x3, .f32⟩ : BufTy).Contents (Elt Ideal)} {K : List (Ref sig .tc)} {V₀ : Valuation τ sig (Elt Ideal)}
    {S : Fin 8 → Fin 512 → Fin 512 → Fin 3 → EReal}
    (H : Holds W (TRef.of (T := ⟨S8x516x516x3, .f32⟩) main_v0) (TRef.of (T := ⟨S8x512x512x25, .f32⟩) main_arg1) acc X Wt P K V₀)
    (hP : ∀ (n : Fin 8) (h w : Fin 512) (c : Fin 3), (P : FVec Ideal SOut .f32) (ix4 n h w c) = S n h w c)
    (a b' p acc' : TRef sig ⟨S8x512x512x3, .f32⟩) (b : TRef sig ⟨S8x512x512x1, .f32⟩) (dh dw k : Nat)
    (hs : S8x516x516x3.Slices ![0, dh, dw, 0] S8x512x512x3) (hs' : S8x512x512x25.Slices ![0, 0, 0, k] S8x512x512x1)
    (hd : Fresh (TRef.of (T := ⟨S8x516x516x3, .f32⟩) main_v0) (TRef.of (T := ⟨S8x512x512x25, .f32⟩) main_arg1) acc a b' p acc' b)
    (hK : ∀ r ∈ K, ∀ y ∈ [a.ref, b.ref, b'.ref, p.ref, acc'.ref], r ≠ y) :
    ∃ P' : (⟨S8x512x512x3, .f32⟩ : BufTy).Contents (Elt Ideal),
      Holds (after (tapG acc a b' p acc' b dh dw k hs hs') W) (TRef.of (T := ⟨S8x516x516x3, .f32⟩) main_v0)
        (TRef.of (T := ⟨S8x512x512x25, .f32⟩) main_arg1) acc' X Wt P' K V₀
      ∧ ∀ (n : Fin 8) (h w : Fin 512) (c : Fin 3), (P' : FVec Ideal SOut .f32) (ix4 n h w c)
          = S n h w c + tapAt X Wt n h w c dh dw k (by have := row_le hs; have := h.isLt; omega)
              (by have := col_le hs; have := w.isLt; omega) (lane_lt hs') :=
  ⟨_, tapG_step H a b' p acc' b dh dw k hs hs' hd hK, fun n h w c =>
    congrArg₂ (· + ·) (hP n h w c) (tap_host X Wt dh dw k hs hs' bcast_S8x512x512x1_S8x512x512x3_0_1_2_3 n h w c)⟩

/-- THE FOLD over two plain arrays: when the padding of the first argument is `X` and the second argument is `Wt`, the
    whole program leaves `conv X Wt` in the result buffer — after the 25th group the running value is the 25 taps added
    to zero in order — and the arguments as they were. -/
theorem after_ops_of (V : Valuation τ sig (Elt Ideal)) (X : FVec Ideal SPad .f32) (Wt : FVec Ideal SWt .f32)
    (hX : zeroPad (V main_arg0) pads_S8x512x512x3_S8x516x516x3_000_220_220_000 h_S_ = X) (hWt : V main_arg1 = Wt) :
    (after ops V main_v126 : FVec Ideal SOut .f32) = conv X Wt
      ∧ after ops V main_arg0 = V main_arg0 ∧ after ops V main_arg1 = V main_arg1 := by
  have h0 := holds_pre (F := Ideal) V X Wt hX hWt
  have v0 : ∀ (n : Fin 8) (h w : Fin 512) (c : Fin 3),
      (broadcastInDim S8x512x512x3 ![] bcast_S_S8x512x512x3 (constant (F := Ideal) S_ .f32 0x00000000#32) : FVec Ideal SOut .f32)
        (ix4 n h w c) = (fun _ _ _ _ => (0 : EReal)) n h w c := fun n h w c => zero_host _ _
  obtain ⟨P1, h1, v1⟩ := tapG_value h0 v0 (.of main_v2) (.of main_v4) (.of main_v5) (.of main_v6) (.of main_v3) 0 0 0
    slices_S8x516x516x3_S8x512x512x3_0_0_0_0 slices_S8x512x512x25_S8x512x512x1_0_0_0_0 (by decide) (by decide)
  obtain ⟨P2, h2, v2⟩ := tapG_value h1 v1 (.of main_v7) (.of main_v9) (.of main_v10) (.of main_v11) (.of main_v8) 0 1 1
    slices_S8x516x516x3_S8x512x512x3_0_0_1_0 slices_S8x512x512x25_S8x512x512x1_0_0_0_1 (by decide) (by decide)
  obtain ⟨P3, h3, v3⟩ := tapG_value h2 v2 (.of main_v12) (.of main_v14) (.of main_v15) (.of main_v16) (.of main_v13) 0 2 2
    slices_S8x516x516x3_S8x512x512x3_0_0_2_0 slices_S8x512x512x25_S8x512x512x1_0_0_0_2 (by decide) (by decide)
  obtain ⟨P4, h4, v4⟩ := tapG_value h3 v3 (.of main_v17) (.of main_v19) (.of main_v20) (.of main_v21) (.of main_v18) 0 3 3
    slices_S8x516x516x3_S8x512x512x3_0_0_3_0 slices_S8x512x512x25_S8x512x512x1_0_0_0_3 (by decide) (by decide)
  obtain ⟨P5, h5, v5⟩ := tapG_value h4 v4 (.of main_v22) (.of main_v24) (.of main_v25) (.of main_v26) (.of main_v23) 0 4 4
    slices_S8x516x516x3_S8x512x512x3_0_0_4_0 slices_S8x512x512x25_S8x512x512x1_0_0_0_4 (by decide) (by decide)
  obtain ⟨P6, h6, v6⟩ := tapG_value h5 v5 (.of main_v27) (.of main_v29) (.of main_v30) (.of main_v31) (.of main_v28) 1 0 5
    slices_S8x516x516x3_S8x512x512x3_0_1_0_0 slices_S8x512x512x25_S8x512x512x1_0_0_0_5 (by decide) (by decide)
  obtain ⟨P7, h7, v7⟩ := tapG_value h6 v6 (.of main_v32) (.of main_v34) (.of main_v35) (.of main_v36) (.of main_v33) 1 1 6
    slices_S8x516x516x3_S8x512x512x3_0_1_1_0 slices_S8x512x512x25_S8x512x512x1_0_0_0_6 (by decide) (by decide)
  obtain ⟨P8, h8, v8⟩ := tapG_value h7 v7 (.of main_v37) (.of main_v39) (.of main_v40) (.of main_v41) (.of main_v38) 1 2 7
    slices_S8x516x516x3_S8x512x512x3_0_1_2_0 slices_S8x512x512x25_S8x512x512x1_0_0_0_7 (by decide) (by decide)
  obtain ⟨P9, h9, v9⟩ := tapG_value h8 v8 (.of main_v42) (.of main_v44) (.of main_v45) (.of main_v46) (.of main_v43) 1 3 8
    slices_S8x516x516x3_S8x512x512x3_0_1_3_0 slices_S8x512x512x25_S8x512x512x1_0_0_0_8 (by decide) (by decide)
  obtain ⟨P10, h10, v10⟩ := tapG_value h9 v9 (.of main_v47) (.of main_v49) (.of main_v50) (.of main_v51) (.of main_v48) 1 4 9
    slices_S8x516x516x3_S8x512x512x3_0_1_4_0 slices_S8x512x512x25_S8x512x512x1_0_0_0_9 (by decide) (by decide)
  obtain ⟨P11, h11, v11⟩ := tapG_value h10 v10 (.of main_v52) (.of main_v54) (.of main_v55) (.of main_v56) (.of main_v53) 2 0 10
    slices_S8x516x516x3_S8x512x512x3_0_2_0_0 slices_S8x512x512x25_S8x512x512x1_0_0_0_10 (by decide) (by decide)
  obtain ⟨P12, h12, v12⟩ := tapG_value h11 v11 (.of main_v57) (.of main_v59) (.of main_v60) (.of main_v61) (.of main_v58) 2 1 11
    slices_S8x516x516x3_S8x512x512x3_0_2_1_0 slices_S8x512x512x25_S8x512x512x1_0_0_0_11 (by decide) (by decide)
  obtain ⟨P13, h13, v13⟩ := tapG_value h12 v12 (.of main_v62) (.of main_v64) (.of main_v65) (.of main_v66) (.of main_v63) 2 2 12
    slices_S8x516x516x3_S8x512x512x3_0_2_2_0 slices_S8x512x512x25_S8x512x512x1_0_0_0_12 (by decide) (by decide)
  obtain ⟨P14, h14, v14⟩ := tapG_value h13 v13 (.of main_v67) (.of main_v69) (.of main_v70) (.of main_v71) (.of main_v68) 2 3 13
    slices_S8x516x516x3_S8x512x512x3_0_2_3_0 slices_S8x512x512x25_S8x512x512x1_0_0_0_13 (by decide) (by decide)
  obtain ⟨P15, h15, v15⟩ := tapG_value h14 v14 (.of main_v72) (.of main_v74) (.of main_v75) (.of main_v76) (.of main_v73) 2 4 14
    slices_S8x516x516x3_S8x512x512x3_0_2_4_0 slices_S8x512x512x25_S8x512x512x1_0_0_0_14 (by decide) (by decide)
  obtain ⟨P16, h16, v16⟩ := tapG_value h15 v15 (.of main_v77) (.of main_v79) (.of main_v80) (.of main_v81) (.of main_v78) 3 0 15
    slices_S8x516x516x3_S8x512x512x3_0_3_0_0 slices_S8x512x512x25_S8x512x512x1_0_0_0_15 (by decide) (by decide)
  obtain ⟨P17, h17, v17⟩ := tapG_value h16 v16 (.of main_v82) (.of main_v84) (.of main_v85) (.of main_v86) (.of main_v83) 3 1 16
    slices_S8x516x516x3_S8x512x512x3_0_3_1_0 slices_S8x512x512x25_S8x512x512x1_0_0_0_16 (by decide) (by decide)
  obtain ⟨P18, h18, v18⟩ := tapG_value h17 v17 (.of main_v87) (.of main_v89) (.of main_v90) (.of main_v91) (.of main_v88) 3 2 17
    slices_S8x516x516x3_S8x512x512x3_0_3_2_0 slices_S8x512x512x25_S8x512x512x1_0_0_0_17 (by decide) (by decide)
  obtain ⟨P19, h19, v19⟩ := tapG_value h18 v18 (.of main_v92) (.of main_v94) (.of main_v95) (.of main_v96) (.of main_v93) 3 3 18
    slices_S8x516x516x3_S8x512x512x3_0_3_3_0 slices_S8x512x512x25_S8x512x512x1_0_0_0_18 (by decide) (by decide)
  obtain ⟨P20, h20, v20⟩ := tapG_value h19 v19 (.of main_v97) (.of main_v99) (.of main_v100) (.of main_v101) (.of main_v98) 3 4 19
    slices_S8x516x516x3_S8x512x512x3_0_3_4_0 slices_S8x512x512x25_S8x512x512x1_0_0_0_19 (by decide) (by decide)
  obtain ⟨P21, h21, v21⟩ := tapG_value h20 v20 (.of main_v102) (.of main_v104) (.of main_v105) (.of main_v106) (.of main_v103) 4 0 20
    slices_S8x516x516x3_S8x512x512x3_0_4_0_0 slices_S8x512x512x25_S8x512x512x1_0_0_0_20 (by decide) (by decide)
  obtain ⟨P22, h22, v22⟩ := tapG_value h21 v21 (.of main_v107) (.of main_v109) (.of main_v110) (.of main_v111) (.of main_v108) 4 1 21
    slices_S8x516x516x3_S8x512x512x3_0_4_1_0 slices_S8x512x512x25_S8x512x512x1_0_0_0_21 (by decide) (by decide)
  obtain ⟨P23, h23, v23⟩ := tapG_value h22 v22 (.of main_v112) (.of main_v114) (.of main_v115) (.of main_v116) (.of main_v113) 4 2 22
    slices_S8x516x516x3_S8x512x512x3_0_4_2_0 slices_S8x512x512x25_S8x512x512x1_0_0_0_22 (by decide) (by decide)
  obtain ⟨P24, h24, v24⟩ := tapG_value h23 v23 (.of main_v117) (.of main_v119) (.of main_v120) (.of main_v121) (.of main_v118) 4 3 23
    slices_S8x516x516x3_S8x512x512x3_0_4_3_0 slices_S8x512x512x25_S8x512x512x1_0_0_0_23 (by decide) (by decide)
  obtain ⟨P25, h25, v25⟩ := tapG_value h24 v24 (.of main_v122) (.of main_v124) (.of main_v125) (.of main_v126) (.of main_v123) 4 4 24
    slices_S8x516x516x3_S8x512x512x3_0_4_4_0 slices_S8x512x512x25_S8x512x512x1_0_0_0_24 (by decide) (by decide)
  simp only [ops, groups, List.flatten_cons, List.flatten_nil, List.append_nil, after_append]
  refine ⟨h25.acc_eq.trans ?_, h25.keep main_arg0 (by simp), h25.keep main_arg1 (by simp)⟩
  funext i
  obtain ⟨n, h, w, c, rfl⟩ : ∃ (n : Fin 8) (h w : Fin 512) (c : Fin 3), i = ix4 n h w c := ⟨i 0, i 1, i 2, i 3, eq_ix4 i⟩
  exact v25 n h w c

/-- THE FOLD of the whole program at the extended reals. -/
theorem after_ops (V : Valuation τ sig (Elt Ideal)) :
    (after ops V main_v126 : FVec Ideal SOut .f32)
        = conv (zeroPad (V main_arg0) pads_S8x512x512x3_S8x516x516x3_000_220_220_000 h_S_) (V main_arg1)
      ∧ after ops V main_arg0 = V main_arg0 ∧ after ops V main_arg1 = V main_arg1 :=
  after_ops_of V _ _ rfl rfl

/-- THE RUN, READ: every weakly fair execution of the reference terminates with its result at the local convolution of the
    zero-padded first argument with the second, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v126)
        = conv (zeroPad (m ((c.tc : Thread nD τ).loc main_arg0)) pads_S8x512x512x3_S8x516x516x3_000_220_220_000 h_S_)
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v126).trans (after_ops (launchContents m c)).1,
      (h c main_arg0).trans (after_ops (launchContents m c)).2.1,
      (h c main_arg1).trans (after_ops (launchContents m c)).2.2⟩)
    (run_seq scopedRefs_eq scopedSems_eq defs main (fun _ => ops) main_eq (fun _ => ops_sub) m ρ (fun _ => ops_fresh))

end Cert.ReferenceIdeal.RefRun

end
-- ==== Proof.lean ====
/-
  Local (untied) 5×5 convolution: a Pallas kernel against its jnp reference, over the extended reals.

  Both programs zero-pad the input [8, 512, 512, 3] by two rows and two columns on each side and compute, at every pixel
  (n, h, w) and channel c, the sum over the 25 window offsets k = 5·dh + dw of

      padded (n, h + dh, w + dw, c) · weights (n, h, w, k),

  starting from zero and adding the taps in the order k = 0, 1, …, 24. The reference does so on whole arrays, one slice,
  product and sum per tap. The kernel walks a grid of 8 samples × 4 blocks of 128 rows: at a point it holds the padded
  sample whole and the block's weights, loads for each tap the window of the sample at offset (128·h0 + dh, dw) and one
  lane of the weights, accumulates in the same order, and stores the block. The two results are the same function of
  the arguments, term by term in the same order, so the proof needs no law of the extended reals (and never opens the
  finiteness precondition): it reads each side at an index — the kernel's block through the generated frame run and the
  blocks' tiling of the result (ConvBlock, ConvArray), the reference's straight line of 130 operations group by group
  (RefRun) — and meets both in one specification (ConvSpec, `conv`).

  frame_Kernel, frame_KernelIdeal: the generated frames. frame_ReferenceIdeal: the reference's run with the result
  dropped. preserves: the ideal pass rewrote nothing. algebraic: both runs end at `conv` of the padded first argument and
  the second.
-/
import proofs.«122992_j46815143526701_1_alg».proof.Defs
import proofs.«122992_j46815143526701_1_alg».proof.Proof.Gen.Kernel
import proofs.«122992_j46815143526701_1_alg».proof.Proof.Gen.Kernel.Skeleton
import proofs.«122992_j46815143526701_1_alg».proof.Proof.Gen.Kernel.Launch
import proofs.«122992_j46815143526701_1_alg».proof.Proof.Gen.Kernel.Points
import proofs.«122992_j46815143526701_1_alg».proof.Proof.Gen.Kernel.Frame
import proofs.«122992_j46815143526701_1_alg».proof.Proof.Gen.KernelIdeal
import proofs.«122992_j46815143526701_1_alg».proof.Proof.Gen.KernelIdeal.Skeleton
import proofs.«122992_j46815143526701_1_alg».proof.Proof.Gen.KernelIdeal.Launch
import proofs.«122992_j46815143526701_1_alg».proof.Proof.Gen.KernelIdeal.Points
import proofs.«122992_j46815143526701_1_alg».proof.Proof.Gen.KernelIdeal.Frame
import proofs.«122992_j46815143526701_1_alg».proof.Proof.Gen.ReferenceIdeal
import proofs.«122992_j46815143526701_1_alg».proof.Proof.Gen.Pre_finite_inputs
import proofs.«122992_j46815143526701_1_alg».proof.Proof.Gen.KernelIdeal.Value
import proofs.«122992_j46815143526701_1_alg».proof.Proof.ConvArray
import proofs.«122992_j46815143526701_1_alg».proof.Proof.RefValue
import Idealize.ShloMosaic.Adequacy
import Idealize.ShloMosaic.Init

noncomputable section

namespace Cert.Proof

open Idealize.ShloMosaic Idealize.ShloMosaic.TcCoe Idealize.SL.Sem Cert.ConvSpec

theorem frame_p : Cert.frame_Kernel := fun m ρ _ => Cert.Kernel.Gen.frame m ρ

theorem frame_pi : Cert.frame_KernelIdeal := fun m ρ _ => Cert.KernelIdeal.Gen.frame m ρ

/-- The reference runs and keeps its arguments: its run, read, with the result dropped. -/
theorem frame_ri : Cert.frame_ReferenceIdeal := fun m ρ _ =>
  (θ_run Cert.ReferenceIdeal.defs _ _).mono (fun _ h c => (h c).2) (Cert.ReferenceIdeal.RefRun.run m ρ)

/-- From memories agreeing on the arguments both programs end with the result array at the local convolution of the
    zero-padded first argument with the second: the kernel's blocks tile it (ConvArray), the reference's 25 groups add
    its taps in order (RefRun), and the two padded inputs are one array since the arguments agree. -/
theorem algebraic : Cert.algebraic_KernelIdeal_ReferenceIdeal := by
  intro m ρ m' ρ' _ hagree
  refine ⟨fun c => conv (zeroPad (m ((c.tc : Thread Cert.KernelIdeal.nD Cert.KernelIdeal.τ).loc Cert.KernelIdeal.main_arg0))
      Cert.KernelIdeal.Gen.pads_S8x512x512x3_S8x516x516x3_000_220_220_000 Cert.KernelIdeal.Gen.h_S_)
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
